-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S4x128 : Shape := ⟨2, ![4, 128]⟩
abbrev S128 : Shape := ⟨1, ![128]⟩
abbrev S128x128 : Shape := ⟨2, ![128, 128]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x4 .f32) (main_arg1 : IVec S2x1600000 32) (main_arg2 : FVec F S4x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x4 : Shape := ⟨2, ![100000, 4]⟩
abbrev S2x1600000 : Shape := ⟨2, ![2, 1600000]⟩
abbrev S4x128 : Shape := ⟨2, ![4, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x4 : Shape := ⟨2, ![5000, 4]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 103
  | .vmem => 22
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x128, .f32⟩
  | .hbm, ⟨94, _⟩ => ⟨S1700000x1, .f32⟩
  | .hbm, ⟨95, _⟩ => ⟨S1700000x128, .f32⟩
  | .hbm, ⟨96, _⟩ => ⟨S1700000x128, .f32⟩
  | .hbm, ⟨97, _⟩ => ⟨S_, .f32⟩
  | .hbm, ⟨98, _⟩ => ⟨S100000x128, .f32⟩
  | .hbm, ⟨99, _⟩ => ⟨S1700000x1, .i32⟩
  | .hbm, ⟨100, _⟩ => ⟨S100000x128, .f32⟩
  | .hbm, ⟨101, _⟩ => ⟨S1x128, .f32⟩
  | .hbm, ⟨102, _⟩ => ⟨S100000x128, .f32⟩
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x4_S4x128_S5000x128_1_0_0_1_n_n_wf : DotDims.WF S5000x4 S4x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S4x128 : Shape := ⟨2, ![4, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .f32⟩
  | .hbm, ⟨104, _⟩ => ⟨S1700000x1, .f32⟩
  | .hbm, ⟨105, _⟩ => ⟨S1700000x128, .f32⟩
  | .hbm, ⟨106, _⟩ => ⟨S1700000x128, .f32⟩
  | .hbm, ⟨107, _⟩ => ⟨S_, .f32⟩
  | .hbm, ⟨108, _⟩ => ⟨S100000x128, .f32⟩
  | .hbm, ⟨109, _⟩ => ⟨S1700000x1, .i32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x4_S4x128_S100000x128_1_0_0_1_n_n_wf : DotDims.WF S100000x4 S4x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  @main is ten segments: stretches of host operations and four regions.  The contents of the TensorCore's buffers at each
  boundary are a fold from the launch memory: a stretch applies its operations, a region leaves its arrays at what its
  write-backs make of them and every other buffer as entered.  Every weakly fair execution terminates, and the final state
  holds each unscoped buffer at the last boundary's contents: in particular the result buffer, beside the unchanged
  arguments.
-/
import proofs.«166022_j22273700397754_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions' launch theorem finds its implicit arguments by unifying its conclusion with this statement, which takes
-- unfolding plain definitions in a metavariable's type
set_option backward.isDefEq.respectTransparency.types false in
/-- Every weakly fair execution of @main terminates with the result buffer at the last boundary's contents and the
    argument arrays as launched. -/
theorem run : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.RefStages.lean ====
/-
  The reference's operations cut at the places where the kernel's program enters and leaves its four regions.

  The reference is one line of 106 host operations.  Read in ten stretches it has the kernel program's shape: the graph
  bookkeeping (in three stretches); layer 1's product; an aggregation; bias, maximum with zero and layer 2's product; an aggregation; bias, maximum
  and layer 3's product; an aggregation; the last bias.  The buffers' contents after each stretch are a fold from the launch
  memory, and the fold over the whole line is the fold over the stretches in order.
  (The operations' text below is the reference's own list of operations, stretch by stretch.)
-/
import proofs.«166022_j22273700397754_1_alg».proof.Proof.RefOps
import Idealize.ShloMosaic.Lib.Pipeline.Frame

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Stretch A1: the graph bookkeeping up to the node degrees: sources and targets with the self loops appended, the count of
    incoming edges, its comparison with zero and its inverse square root. -/
abbrev opsA1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Stretch A2: the inverse square root where the degree is positive, zero elsewhere (a called function's three operations). -/
abbrev opsA2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Stretch A3: the edge weights: the product of the two end points' values. -/
abbrev opsA3 : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Stretch B: layer 1's product X · W1. -/
abbrev opsB : List (HloOp τ sig (Elt F)) :=
  [ binary main_arg0 main_arg2 main_v30 ((fun l r => Host.dotGeneral dot_S100000x4_S4x128_S100000x128_1_0_0_1_n_n none l r) : (⟨S100000x4, .f32⟩ : BufTy).Contents (Elt F) → (⟨S4x128, .f32⟩ : BufTy).Contents (Elt F) → (⟨S100000x128, .f32⟩ : BufTy).Contents (Elt F)) ]

/-- Stretch C: layer 1's aggregation, and the first bias laid as a row. -/
abbrev opsC : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)) ]

/-- Stretch D: the first bias added, the maximum with zero, and layer 2's product. -/
abbrev opsD : List (HloOp τ sig (Elt F)) :=
  [ unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Stretch E: layer 2's aggregation, and the second bias laid as a row. -/
abbrev opsE : List (HloOp τ sig (Elt F)) :=
  [ nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)) ]

/-- Stretch F: the second bias added, the maximum with zero, and layer 3's product. -/
abbrev opsF : List (HloOp τ sig (Elt F)) :=
  [ unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf,
    binary main_v65 main_arg6 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Stretch G: layer 3's aggregation, and the third bias laid as a row. -/
abbrev opsG : List (HloOp τ sig (Elt F)) :=
  [ nullary main_c_12 (constantI S_ 32 0#32),
    unary main_c_12 main_v67 (broadcastInDim S1700000 ![] bcast_S_S1700000 : (⟨S_, .i32⟩ : BufTy).Contents (Elt F) → (⟨S1700000, .i32⟩ : BufTy).Contents (Elt F)),
    binary main_v3 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v3 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v74 (broadcastInDim S1700000x1 ![0] bcast_S1700000_S1700000x1_0 : (⟨S1700000, .f32⟩ : BufTy).Contents (Elt F) → (⟨S1700000x1, .f32⟩ : BufTy).Contents (Elt F)),
    unary main_v74 main_v75 (broadcastInDim S1700000x128 ![0, 1] bcast_S1700000x1_S1700000x128_0_1 : (⟨S1700000x1, .f32⟩ : BufTy).Contents (Elt F) → (⟨S1700000x128, .f32⟩ : BufTy).Contents (Elt F)),
    binary main_v73 main_v75 main_v76 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v77 (broadcastInDim S100000x128 ![] bcast_S_S100000x128 : (⟨S_, .f32⟩ : BufTy).Contents (Elt F) → (⟨S100000x128, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg7 main_v80 (broadcastInDim S1x128 ![1] bcast_S128_S1x128_1 : (⟨S128, .f32⟩ : BufTy).Contents (Elt F) → (⟨S1x128, .f32⟩ : BufTy).Contents (Elt F)) ]

/-- Stretch H: the third bias added. -/
abbrev opsH : List (HloOp τ sig (Elt F)) :=
  [ unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)) ]

set_option maxHeartbeats 4000000 in
/-- The whole line is the ten stretches in order. -/
theorem ops_split : (Cert.ReferenceIdeal.Value.ops : List (HloOp τ sig (Elt F)))
    = opsA1 ++ (opsA2 ++ (opsA3 ++ (opsB ++ (opsC ++ (opsD ++ (opsE ++ (opsF ++ (opsG ++ opsH)))))))) := rfl

variable (m : (ℓ : Loc nD τ sig) → Buf (Elt F) ℓ)

/-- The buffers' contents at launch and after each stretch (each a definition, so that a proof opens one stretch at a time). -/
abbrev R0 (c : Dev nD) : Valuation τ sig (Elt F) := launchContents m c
def R1a (c : Dev nD) : Valuation τ sig (Elt F) := after opsA1 (R0 m c)
def R1b (c : Dev nD) : Valuation τ sig (Elt F) := after opsA2 (R1a m c)
def R1 (c : Dev nD) : Valuation τ sig (Elt F) := after opsA3 (R1b m c)
def R2 (c : Dev nD) : Valuation τ sig (Elt F) := after opsB (R1 m c)
def R3 (c : Dev nD) : Valuation τ sig (Elt F) := after opsC (R2 m c)
def R4 (c : Dev nD) : Valuation τ sig (Elt F) := after opsD (R3 m c)
def R5 (c : Dev nD) : Valuation τ sig (Elt F) := after opsE (R4 m c)
def R6 (c : Dev nD) : Valuation τ sig (Elt F) := after opsF (R5 m c)
def R7 (c : Dev nD) : Valuation τ sig (Elt F) := after opsG (R6 m c)
def R8 (c : Dev nD) : Valuation τ sig (Elt F) := after opsH (R7 m c)

/-- The fold over the whole line is the fold over the stretches in order. -/
theorem after_ops (c : Dev nD) : after Cert.ReferenceIdeal.Value.ops (launchContents m c) = R8 m c := by
  rw [ops_split]
  simp only [Idealize.ShloMosaic.StableHlo.after_append]
  rfl

/-! ## A called function's typed references

An operation of a called function (the maximum with zero) reads and writes its buffers through typed references; the
transport of contents between a buffer's type and the value's type is the identity, the two types being the same. -/

section Casts
variable {Val : EltTy → Type}
theorem toBuf_main_call1_cst (p1 p2 p3) (v : (⟨S_, .f32⟩ : BufTy).Contents Val) :
    (TRef.of (sig := sig) (T := ⟨S_, .f32⟩) main_call1_cst p1 p2 p3).toBuf v = v := cast_eq _ _
theorem ofBuf_main_call1_cst (p1 p2 p3) (v : (⟨S_, .f32⟩ : BufTy).Contents Val) :
    (TRef.of (sig := sig) (T := ⟨S_, .f32⟩) main_call1_cst p1 p2 p3).ofBuf v = v := cast_eq _ _
theorem toBuf_main_call1_v0 (p1 p2 p3) (v : (⟨S100000x128, .f32⟩ : BufTy).Contents Val) :
    (TRef.of (sig := sig) (T := ⟨S100000x128, .f32⟩) main_call1_v0 p1 p2 p3).toBuf v = v := cast_eq _ _
theorem ofBuf_main_call1_v0 (p1 p2 p3) (v : (⟨S100000x128, .f32⟩ : BufTy).Contents Val) :
    (TRef.of (sig := sig) (T := ⟨S100000x128, .f32⟩) main_call1_v0 p1 p2 p3).ofBuf v = v := cast_eq _ _
theorem toBuf_main_v46 (p1 p2 p3) (v : (⟨S100000x128, .f32⟩ : BufTy).Contents Val) :
    (TRef.of (sig := sig) (T := ⟨S100000x128, .f32⟩) main_v46 p1 p2 p3).toBuf v = v := cast_eq _ _
theorem ofBuf_main_v46 (p1 p2 p3) (v : (⟨S100000x128, .f32⟩ : BufTy).Contents Val) :
    (TRef.of (sig := sig) (T := ⟨S100000x128, .f32⟩) main_v46 p1 p2 p3).ofBuf v = v := cast_eq _ _
theorem toBuf_main_v47 (p1 p2 p3) (v : (⟨S100000x128, .f32⟩ : BufTy).Contents Val) :
    (TRef.of (sig := sig) (T := ⟨S100000x128, .f32⟩) main_v47 p1 p2 p3).toBuf v = v := cast_eq _ _
theorem ofBuf_main_v47 (p1 p2 p3) (v : (⟨S100000x128, .f32⟩ : BufTy).Contents Val) :
    (TRef.of (sig := sig) (T := ⟨S100000x128, .f32⟩) main_v47 p1 p2 p3).ofBuf v = v := cast_eq _ _
theorem toBuf_main_call2_cst (p1 p2 p3) (v : (⟨S_, .f32⟩ : BufTy).Contents Val) :
    (TRef.of (sig := sig) (T := ⟨S_, .f32⟩) main_call2_cst p1 p2 p3).toBuf v = v := cast_eq _ _
theorem ofBuf_main_call2_cst (p1 p2 p3) (v : (⟨S_, .f32⟩ : BufTy).Contents Val) :
    (TRef.of (sig := sig) (T := ⟨S_, .f32⟩) main_call2_cst p1 p2 p3).ofBuf v = v := cast_eq _ _
theorem toBuf_main_call2_v0 (p1 p2 p3) (v : (⟨S100000x128, .f32⟩ : BufTy).Contents Val) :
    (TRef.of (sig := sig) (T := ⟨S100000x128, .f32⟩) main_call2_v0 p1 p2 p3).toBuf v = v := cast_eq _ _
theorem ofBuf_main_call2_v0 (p1 p2 p3) (v : (⟨S100000x128, .f32⟩ : BufTy).Contents Val) :
    (TRef.of (sig := sig) (T := ⟨S100000x128, .f32⟩) main_call2_v0 p1 p2 p3).ofBuf v = v := cast_eq _ _
theorem toBuf_main_v64 (p1 p2 p3) (v : (⟨S100000x128, .f32⟩ : BufTy).Contents Val) :
    (TRef.of (sig := sig) (T := ⟨S100000x128, .f32⟩) main_v64 p1 p2 p3).toBuf v = v := cast_eq _ _
theorem ofBuf_main_v64 (p1 p2 p3) (v : (⟨S100000x128, .f32⟩ : BufTy).Contents Val) :
    (TRef.of (sig := sig) (T := ⟨S100000x128, .f32⟩) main_v64 p1 p2 p3).ofBuf v = v := cast_eq _ _
theorem toBuf_main_v65 (p1 p2 p3) (v : (⟨S100000x128, .f32⟩ : BufTy).Contents Val) :
    (TRef.of (sig := sig) (T := ⟨S100000x128, .f32⟩) main_v65 p1 p2 p3).toBuf v = v := cast_eq _ _
theorem ofBuf_main_v65 (p1 p2 p3) (v : (⟨S100000x128, .f32⟩ : BufTy).Contents Val) :
    (TRef.of (sig := sig) (T := ⟨S100000x128, .f32⟩) main_v65 p1 p2 p3).ofBuf v = v := cast_eq _ _
end Casts

/-! ## The two product records' facts -/

theorem dot4_lhs0 (j : S100000x128.Idx) (k : dot_S100000x4_S4x128_S100000x128_1_0_0_1_n_n.contr.Idx) :
    (dot_S100000x4_S4x128_S100000x128_1_0_0_1_n_n.lhsIdx j k 0).val = (j 0).val := by
  unfold DotDims.lhsIdx
  rw [dif_neg (show ¬(0 : Fin S100000x4.rank) ∈ dot_S100000x4_S4x128_S100000x128_1_0_0_1_n_n.lhsBatch by decide),
    dif_pos (show (0 : Fin S100000x4.rank) ∈ dot_S100000x4_S4x128_S100000x128_1_0_0_1_n_n.lhsNonContracting by decide)]
  rfl
theorem dot4_rhs1 (j : S100000x128.Idx) (k : dot_S100000x4_S4x128_S100000x128_1_0_0_1_n_n.contr.Idx) :
    (dot_S100000x4_S4x128_S100000x128_1_0_0_1_n_n.rhsIdx j k 1).val = (j 1).val := by
  unfold DotDims.rhsIdx
  rw [dif_neg (show ¬(1 : Fin S4x128.rank) ∈ dot_S100000x4_S4x128_S100000x128_1_0_0_1_n_n.rhsBatch by decide),
    dif_pos (show (1 : Fin S4x128.rank) ∈ dot_S100000x4_S4x128_S100000x128_1_0_0_1_n_n.rhsNonContracting by decide)]
  rfl
theorem dot128_lhs0 (j : S100000x128.Idx) (k : dot_S100000x128_S128x128_S100000x128_1_0_0_1_n_n.contr.Idx) :
    (dot_S100000x128_S128x128_S100000x128_1_0_0_1_n_n.lhsIdx j k 0).val = (j 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem dot128_rhs1 (j : S100000x128.Idx) (k : dot_S100000x128_S128x128_S100000x128_1_0_0_1_n_n.contr.Idx) :
    (dot_S100000x128_S128x128_S100000x128_1_0_0_1_n_n.rhsIdx j k 1).val = (j 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

end Cert.ReferenceIdeal.Stages

end
-- ==== Proof.BridgeDefs.lean ====
/-
  What the kernel's program and the reference hold at corresponding places.

  Both programs compute, from the same arguments, the same sequence of arrays: the edge sources and targets with the self
  loops appended, the edge weights, and then three times a dense step followed by an aggregation over the edges.  The
  kernel's program makes each dense step in a region, block of rows by block of rows; the reference makes it with one host
  product.  At each boundary between segments the statements below name the buffers of the two programs that hold the
  same array: the bookkeeping arrays and the arguments still to be read, and the newest array of the chain.
-/
import proofs.«166022_j22273700397754_1_alg».proof.Proof.Gen.KernelIdeal.Frame
import proofs.«166022_j22273700397754_1_alg».proof.Proof.RefStages
import Idealize.ShloMosaic.PureOps.Ideal

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two launch memories agree on the eight arguments. -/
def Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- The kernel program's buffers after its first and after its second stretch of host operations (each a definition, so
    that a proof opens one stretch at a time). -/
def KW1 : Valuation Cert.KernelIdeal.τ Cert.KernelIdeal.sig (Elt Ideal) := Cert.KernelIdeal.Gen.W1 m ρ c
def KW2 : Valuation Cert.KernelIdeal.τ Cert.KernelIdeal.sig (Elt Ideal) := Cert.KernelIdeal.Gen.W2 m ρ c

/-- Inside the bookkeeping, after the node degrees: sources, targets, the degrees' comparison with zero, their inverse square
    roots and the zero to put elsewhere; the arguments. -/
structure L1 : Prop where
  v3 : KW1 m ρ c (Proc.devRef .tc Cert.KernelIdeal.main_v3) = Cert.ReferenceIdeal.Stages.R1a m' c (Proc.devRef .tc Cert.ReferenceIdeal.main_v3)
  v6 : KW1 m ρ c (Proc.devRef .tc Cert.KernelIdeal.main_v6) = Cert.ReferenceIdeal.Stages.R1a m' c (Proc.devRef .tc Cert.ReferenceIdeal.main_v6)
  v12 : KW1 m ρ c (Proc.devRef .tc Cert.KernelIdeal.main_v12) = Cert.ReferenceIdeal.Stages.R1a m' c (Proc.devRef .tc Cert.ReferenceIdeal.main_v12)
  v13 : KW1 m ρ c (Proc.devRef .tc Cert.KernelIdeal.main_v13) = Cert.ReferenceIdeal.Stages.R1a m' c (Proc.devRef .tc Cert.ReferenceIdeal.main_v13)
  c2 : KW1 m ρ c (Proc.devRef .tc Cert.KernelIdeal.main_cst_2) = Cert.ReferenceIdeal.Stages.R1a m' c (Proc.devRef .tc Cert.ReferenceIdeal.main_cst_2)
  a0 : KW1 m ρ c (Proc.devRef .tc Cert.KernelIdeal.main_arg0) = Cert.ReferenceIdeal.Stages.R1a m' c (Proc.devRef .tc Cert.ReferenceIdeal.main_arg0)
  a2 : KW1 m ρ c (Proc.devRef .tc Cert.KernelIdeal.main_arg2) = Cert.ReferenceIdeal.Stages.R1a m' c (Proc.devRef .tc Cert.ReferenceIdeal.main_arg2)
  a3 : KW1 m ρ c (Proc.devRef .tc Cert.KernelIdeal.main_arg3) = Cert.ReferenceIdeal.Stages.R1a m' c (Proc.devRef .tc Cert.ReferenceIdeal.main_arg3)
  a4 : KW1 m ρ c (Proc.devRef .tc Cert.KernelIdeal.main_arg4) = Cert.ReferenceIdeal.Stages.R1a m' c (Proc.devRef .tc Cert.ReferenceIdeal.main_arg4)
  a5 : KW1 m ρ c (Proc.devRef .tc Cert.KernelIdeal.main_arg5) = Cert.ReferenceIdeal.Stages.R1a m' c (Proc.devRef .tc Cert.ReferenceIdeal.main_arg5)
  a6 : KW1 m ρ c (Proc.devRef .tc Cert.KernelIdeal.main_arg6) = Cert.ReferenceIdeal.Stages.R1a m' c (Proc.devRef .tc Cert.ReferenceIdeal.main_arg6)
  a7 : KW1 m ρ c (Proc.devRef .tc Cert.KernelIdeal.main_arg7) = Cert.ReferenceIdeal.Stages.R1a m' c (Proc.devRef .tc Cert.ReferenceIdeal.main_arg7)

/-- Inside the bookkeeping, after the selection: sources, targets, the nodes' values; the arguments. -/
structure L2 : Prop where
  v3 : KW2 m ρ c (Proc.devRef .tc Cert.KernelIdeal.main_v3) = Cert.ReferenceIdeal.Stages.R1b m' c (Proc.devRef .tc Cert.ReferenceIdeal.main_v3)
  v6 : KW2 m ρ c (Proc.devRef .tc Cert.KernelIdeal.main_v6) = Cert.ReferenceIdeal.Stages.R1b m' c (Proc.devRef .tc Cert.ReferenceIdeal.main_v6)
  v14 : KW2 m ρ c (Proc.devRef .tc Cert.KernelIdeal.main_v14) = Cert.ReferenceIdeal.Stages.R1b m' c (Proc.devRef .tc Cert.ReferenceIdeal.main_v14)
  a0 : KW2 m ρ c (Proc.devRef .tc Cert.KernelIdeal.main_arg0) = Cert.ReferenceIdeal.Stages.R1b m' c (Proc.devRef .tc Cert.ReferenceIdeal.main_arg0)
  a2 : KW2 m ρ c (Proc.devRef .tc Cert.KernelIdeal.main_arg2) = Cert.ReferenceIdeal.Stages.R1b m' c (Proc.devRef .tc Cert.ReferenceIdeal.main_arg2)
  a3 : KW2 m ρ c (Proc.devRef .tc Cert.KernelIdeal.main_arg3) = Cert.ReferenceIdeal.Stages.R1b m' c (Proc.devRef .tc Cert.ReferenceIdeal.main_arg3)
  a4 : KW2 m ρ c (Proc.devRef .tc Cert.KernelIdeal.main_arg4) = Cert.ReferenceIdeal.Stages.R1b m' c (Proc.devRef .tc Cert.ReferenceIdeal.main_arg4)
  a5 : KW2 m ρ c (Proc.devRef .tc Cert.KernelIdeal.main_arg5) = Cert.ReferenceIdeal.Stages.R1b m' c (Proc.devRef .tc Cert.ReferenceIdeal.main_arg5)
  a6 : KW2 m ρ c (Proc.devRef .tc Cert.KernelIdeal.main_arg6) = Cert.ReferenceIdeal.Stages.R1b m' c (Proc.devRef .tc Cert.ReferenceIdeal.main_arg6)
  a7 : KW2 m ρ c (Proc.devRef .tc Cert.KernelIdeal.main_arg7) = Cert.ReferenceIdeal.Stages.R1b m' c (Proc.devRef .tc Cert.ReferenceIdeal.main_arg7)

/-- Boundary 1: the kernel program's buffers (after its segment 3) and the reference's (after its stretch 1) hold the same arrays. -/
structure L3 : Prop where
  v3 : Cert.KernelIdeal.Gen.W3 m ρ c (Proc.devRef .tc Cert.KernelIdeal.main_v3) = Cert.ReferenceIdeal.Stages.R1 m' c (Proc.devRef .tc Cert.ReferenceIdeal.main_v3)
  v6 : Cert.KernelIdeal.Gen.W3 m ρ c (Proc.devRef .tc Cert.KernelIdeal.main_v6) = Cert.ReferenceIdeal.Stages.R1 m' c (Proc.devRef .tc Cert.ReferenceIdeal.main_v6)
  v29 : Cert.KernelIdeal.Gen.W3 m ρ c (Proc.devRef .tc Cert.KernelIdeal.main_v29) = Cert.ReferenceIdeal.Stages.R1 m' c (Proc.devRef .tc Cert.ReferenceIdeal.main_v29)
  a0 : Cert.KernelIdeal.Gen.W3 m ρ c (Proc.devRef .tc Cert.KernelIdeal.main_arg0) = Cert.ReferenceIdeal.Stages.R1 m' c (Proc.devRef .tc Cert.ReferenceIdeal.main_arg0)
  a2 : Cert.KernelIdeal.Gen.W3 m ρ c (Proc.devRef .tc Cert.KernelIdeal.main_arg2) = Cert.ReferenceIdeal.Stages.R1 m' c (Proc.devRef .tc Cert.ReferenceIdeal.main_arg2)
  a3 : Cert.KernelIdeal.Gen.W3 m ρ c (Proc.devRef .tc Cert.KernelIdeal.main_arg3) = Cert.ReferenceIdeal.Stages.R1 m' c (Proc.devRef .tc Cert.ReferenceIdeal.main_arg3)
  a4 : Cert.KernelIdeal.Gen.W3 m ρ c (Proc.devRef .tc Cert.KernelIdeal.main_arg4) = Cert.ReferenceIdeal.Stages.R1 m' c (Proc.devRef .tc Cert.ReferenceIdeal.main_arg4)
  a5 : Cert.KernelIdeal.Gen.W3 m ρ c (Proc.devRef .tc Cert.KernelIdeal.main_arg5) = Cert.ReferenceIdeal.Stages.R1 m' c (Proc.devRef .tc Cert.ReferenceIdeal.main_arg5)
  a6 : Cert.KernelIdeal.Gen.W3 m ρ c (Proc.devRef .tc Cert.KernelIdeal.main_arg6) = Cert.ReferenceIdeal.Stages.R1 m' c (Proc.devRef .tc Cert.ReferenceIdeal.main_arg6)
  a7 : Cert.KernelIdeal.Gen.W3 m ρ c (Proc.devRef .tc Cert.KernelIdeal.main_arg7) = Cert.ReferenceIdeal.Stages.R1 m' c (Proc.devRef .tc Cert.ReferenceIdeal.main_arg7)

/-- Boundary 2: the kernel program's buffers (after its segment 4) and the reference's (after its stretch 2) hold the same arrays. -/
structure L4 : Prop where
  v3 : Cert.KernelIdeal.Gen.W4 m ρ c (Proc.devRef .tc Cert.KernelIdeal.main_v3) = Cert.ReferenceIdeal.Stages.R2 m' c (Proc.devRef .tc Cert.ReferenceIdeal.main_v3)
  v6 : Cert.KernelIdeal.Gen.W4 m ρ c (Proc.devRef .tc Cert.KernelIdeal.main_v6) = Cert.ReferenceIdeal.Stages.R2 m' c (Proc.devRef .tc Cert.ReferenceIdeal.main_v6)
  v29 : Cert.KernelIdeal.Gen.W4 m ρ c (Proc.devRef .tc Cert.KernelIdeal.main_v29) = Cert.ReferenceIdeal.Stages.R2 m' c (Proc.devRef .tc Cert.ReferenceIdeal.main_v29)
  a3 : Cert.KernelIdeal.Gen.W4 m ρ c (Proc.devRef .tc Cert.KernelIdeal.main_arg3) = Cert.ReferenceIdeal.Stages.R2 m' c (Proc.devRef .tc Cert.ReferenceIdeal.main_arg3)
  a4 : Cert.KernelIdeal.Gen.W4 m ρ c (Proc.devRef .tc Cert.KernelIdeal.main_arg4) = Cert.ReferenceIdeal.Stages.R2 m' c (Proc.devRef .tc Cert.ReferenceIdeal.main_arg4)
  a5 : Cert.KernelIdeal.Gen.W4 m ρ c (Proc.devRef .tc Cert.KernelIdeal.main_arg5) = Cert.ReferenceIdeal.Stages.R2 m' c (Proc.devRef .tc Cert.ReferenceIdeal.main_arg5)
  a6 : Cert.KernelIdeal.Gen.W4 m ρ c (Proc.devRef .tc Cert.KernelIdeal.main_arg6) = Cert.ReferenceIdeal.Stages.R2 m' c (Proc.devRef .tc Cert.ReferenceIdeal.main_arg6)
  a7 : Cert.KernelIdeal.Gen.W4 m ρ c (Proc.devRef .tc Cert.KernelIdeal.main_arg7) = Cert.ReferenceIdeal.Stages.R2 m' c (Proc.devRef .tc Cert.ReferenceIdeal.main_arg7)
  h30 : Cert.KernelIdeal.Gen.W4 m ρ c (Proc.devRef .tc Cert.KernelIdeal.main_v30) = Cert.ReferenceIdeal.Stages.R2 m' c (Proc.devRef .tc Cert.ReferenceIdeal.main_v30)

/-- Boundary 3: the kernel program's buffers (after its segment 5) and the reference's (after its stretch 3) hold the same arrays. -/
structure L5 : Prop where
  v3 : Cert.KernelIdeal.Gen.W5 m ρ c (Proc.devRef .tc Cert.KernelIdeal.main_v3) = Cert.ReferenceIdeal.Stages.R3 m' c (Proc.devRef .tc Cert.ReferenceIdeal.main_v3)
  v6 : Cert.KernelIdeal.Gen.W5 m ρ c (Proc.devRef .tc Cert.KernelIdeal.main_v6) = Cert.ReferenceIdeal.Stages.R3 m' c (Proc.devRef .tc Cert.ReferenceIdeal.main_v6)
  v29 : Cert.KernelIdeal.Gen.W5 m ρ c (Proc.devRef .tc Cert.KernelIdeal.main_v29) = Cert.ReferenceIdeal.Stages.R3 m' c (Proc.devRef .tc Cert.ReferenceIdeal.main_v29)
  a4 : Cert.KernelIdeal.Gen.W5 m ρ c (Proc.devRef .tc Cert.KernelIdeal.main_arg4) = Cert.ReferenceIdeal.Stages.R3 m' c (Proc.devRef .tc Cert.ReferenceIdeal.main_arg4)
  a5 : Cert.KernelIdeal.Gen.W5 m ρ c (Proc.devRef .tc Cert.KernelIdeal.main_arg5) = Cert.ReferenceIdeal.Stages.R3 m' c (Proc.devRef .tc Cert.ReferenceIdeal.main_arg5)
  a6 : Cert.KernelIdeal.Gen.W5 m ρ c (Proc.devRef .tc Cert.KernelIdeal.main_arg6) = Cert.ReferenceIdeal.Stages.R3 m' c (Proc.devRef .tc Cert.ReferenceIdeal.main_arg6)
  a7 : Cert.KernelIdeal.Gen.W5 m ρ c (Proc.devRef .tc Cert.KernelIdeal.main_arg7) = Cert.ReferenceIdeal.Stages.R3 m' c (Proc.devRef .tc Cert.ReferenceIdeal.main_arg7)
  h43 : Cert.KernelIdeal.Gen.W5 m ρ c (Proc.devRef .tc Cert.KernelIdeal.main_v43) = Cert.ReferenceIdeal.Stages.R3 m' c (Proc.devRef .tc Cert.ReferenceIdeal.main_v43)
  r44 : Cert.KernelIdeal.Gen.W5 m ρ c (Proc.devRef .tc Cert.KernelIdeal.main_v44) = Cert.ReferenceIdeal.Stages.R3 m' c (Proc.devRef .tc Cert.ReferenceIdeal.main_v44)

/-- Boundary 4: the kernel program's buffers (after its segment 6) and the reference's (after its stretch 4) hold the same arrays. -/
structure L6 : Prop where
  v3 : Cert.KernelIdeal.Gen.W6 m ρ c (Proc.devRef .tc Cert.KernelIdeal.main_v3) = Cert.ReferenceIdeal.Stages.R4 m' c (Proc.devRef .tc Cert.ReferenceIdeal.main_v3)
  v6 : Cert.KernelIdeal.Gen.W6 m ρ c (Proc.devRef .tc Cert.KernelIdeal.main_v6) = Cert.ReferenceIdeal.Stages.R4 m' c (Proc.devRef .tc Cert.ReferenceIdeal.main_v6)
  v29 : Cert.KernelIdeal.Gen.W6 m ρ c (Proc.devRef .tc Cert.KernelIdeal.main_v29) = Cert.ReferenceIdeal.Stages.R4 m' c (Proc.devRef .tc Cert.ReferenceIdeal.main_v29)
  a5 : Cert.KernelIdeal.Gen.W6 m ρ c (Proc.devRef .tc Cert.KernelIdeal.main_arg5) = Cert.ReferenceIdeal.Stages.R4 m' c (Proc.devRef .tc Cert.ReferenceIdeal.main_arg5)
  a6 : Cert.KernelIdeal.Gen.W6 m ρ c (Proc.devRef .tc Cert.KernelIdeal.main_arg6) = Cert.ReferenceIdeal.Stages.R4 m' c (Proc.devRef .tc Cert.ReferenceIdeal.main_arg6)
  a7 : Cert.KernelIdeal.Gen.W6 m ρ c (Proc.devRef .tc Cert.KernelIdeal.main_arg7) = Cert.ReferenceIdeal.Stages.R4 m' c (Proc.devRef .tc Cert.ReferenceIdeal.main_arg7)
  h45 : Cert.KernelIdeal.Gen.W6 m ρ c (Proc.devRef .tc Cert.KernelIdeal.main_v45) = Cert.ReferenceIdeal.Stages.R4 m' c (Proc.devRef .tc Cert.ReferenceIdeal.main_v48)

/-- Boundary 5: the kernel program's buffers (after its segment 7) and the reference's (after its stretch 5) hold the same arrays. -/
structure L7 : Prop where
  v3 : Cert.KernelIdeal.Gen.W7 m ρ c (Proc.devRef .tc Cert.KernelIdeal.main_v3) = Cert.ReferenceIdeal.Stages.R5 m' c (Proc.devRef .tc Cert.ReferenceIdeal.main_v3)
  v6 : Cert.KernelIdeal.Gen.W7 m ρ c (Proc.devRef .tc Cert.KernelIdeal.main_v6) = Cert.ReferenceIdeal.Stages.R5 m' c (Proc.devRef .tc Cert.ReferenceIdeal.main_v6)
  v29 : Cert.KernelIdeal.Gen.W7 m ρ c (Proc.devRef .tc Cert.KernelIdeal.main_v29) = Cert.ReferenceIdeal.Stages.R5 m' c (Proc.devRef .tc Cert.ReferenceIdeal.main_v29)
  a6 : Cert.KernelIdeal.Gen.W7 m ρ c (Proc.devRef .tc Cert.KernelIdeal.main_arg6) = Cert.ReferenceIdeal.Stages.R5 m' c (Proc.devRef .tc Cert.ReferenceIdeal.main_arg6)
  a7 : Cert.KernelIdeal.Gen.W7 m ρ c (Proc.devRef .tc Cert.KernelIdeal.main_arg7) = Cert.ReferenceIdeal.Stages.R5 m' c (Proc.devRef .tc Cert.ReferenceIdeal.main_arg7)
  h58 : Cert.KernelIdeal.Gen.W7 m ρ c (Proc.devRef .tc Cert.KernelIdeal.main_v58) = Cert.ReferenceIdeal.Stages.R5 m' c (Proc.devRef .tc Cert.ReferenceIdeal.main_v61)
  r59 : Cert.KernelIdeal.Gen.W7 m ρ c (Proc.devRef .tc Cert.KernelIdeal.main_v59) = Cert.ReferenceIdeal.Stages.R5 m' c (Proc.devRef .tc Cert.ReferenceIdeal.main_v62)

/-- Boundary 6: the kernel program's buffers (after its segment 8) and the reference's (after its stretch 6) hold the same arrays. -/
structure L8 : Prop where
  v3 : Cert.KernelIdeal.Gen.W8 m ρ c (Proc.devRef .tc Cert.KernelIdeal.main_v3) = Cert.ReferenceIdeal.Stages.R6 m' c (Proc.devRef .tc Cert.ReferenceIdeal.main_v3)
  v6 : Cert.KernelIdeal.Gen.W8 m ρ c (Proc.devRef .tc Cert.KernelIdeal.main_v6) = Cert.ReferenceIdeal.Stages.R6 m' c (Proc.devRef .tc Cert.ReferenceIdeal.main_v6)
  v29 : Cert.KernelIdeal.Gen.W8 m ρ c (Proc.devRef .tc Cert.KernelIdeal.main_v29) = Cert.ReferenceIdeal.Stages.R6 m' c (Proc.devRef .tc Cert.ReferenceIdeal.main_v29)
  a7 : Cert.KernelIdeal.Gen.W8 m ρ c (Proc.devRef .tc Cert.KernelIdeal.main_arg7) = Cert.ReferenceIdeal.Stages.R6 m' c (Proc.devRef .tc Cert.ReferenceIdeal.main_arg7)
  h60 : Cert.KernelIdeal.Gen.W8 m ρ c (Proc.devRef .tc Cert.KernelIdeal.main_v60) = Cert.ReferenceIdeal.Stages.R6 m' c (Proc.devRef .tc Cert.ReferenceIdeal.main_v66)

/-- Boundary 7: the kernel program's buffers (after its segment 9) and the reference's (after its stretch 7) hold the same arrays. -/
structure L9 : Prop where
  h73 : Cert.KernelIdeal.Gen.W9 m ρ c (Proc.devRef .tc Cert.KernelIdeal.main_v73) = Cert.ReferenceIdeal.Stages.R7 m' c (Proc.devRef .tc Cert.ReferenceIdeal.main_v79)
  r74 : Cert.KernelIdeal.Gen.W9 m ρ c (Proc.devRef .tc Cert.KernelIdeal.main_v74) = Cert.ReferenceIdeal.Stages.R7 m' c (Proc.devRef .tc Cert.ReferenceIdeal.main_v80)

/-- Boundary 8: the kernel program's buffers (after its segment 10) and the reference's (after its stretch 8) hold the same arrays. -/
structure L10 : Prop where
  out : Cert.KernelIdeal.Gen.W10 m ρ c (Proc.devRef .tc Cert.KernelIdeal.main_v75) = Cert.ReferenceIdeal.Stages.R8 m' c (Proc.devRef .tc Cert.ReferenceIdeal.main_v82)

end Cert.Bridge

end
-- ==== Proof.Bridge1.lean ====
/-
  Inside the bookkeeping, after the node degrees.

  Both programs cut the two rows out of the edge list, append the self loops 0 … 99999 to each, count the edges arriving at
  each node by adding ones at the targets, compare the counts with zero and take their inverse square roots: the same
  operations on the same edge list.  No argument has been touched.
-/
import proofs.«166022_j22273700397754_1_alg».proof.Proof.BridgeDefs

import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
theorem l1_v3 (hag : Agree m m') : KW1 m ρ c (Proc.devRef .tc Cert.KernelIdeal.main_v3) = Cert.ReferenceIdeal.Stages.R1a m' c (Proc.devRef .tc Cert.ReferenceIdeal.main_v3) := by
  have e1 : StableHlo.launchContents m' c (Proc.devRef .tc Cert.ReferenceIdeal.main_arg1) = Cert.KernelIdeal.Gen.W0 m ρ c (Proc.devRef .tc Cert.KernelIdeal.main_arg1) := (hag c).2.1
  show StableHlo.after Cert.KernelIdeal.Gen.hostOps0 (Cert.KernelIdeal.Gen.W0 m ρ c) (Proc.devRef .tc Cert.KernelIdeal.main_v3) = StableHlo.after Cert.ReferenceIdeal.Stages.opsA1 (StableHlo.launchContents m' c) (Proc.devRef .tc Cert.ReferenceIdeal.main_v3)
  after_results
  rw [e1]
  rfl

set_option maxHeartbeats 8000000 in
theorem l1_v6 (hag : Agree m m') : KW1 m ρ c (Proc.devRef .tc Cert.KernelIdeal.main_v6) = Cert.ReferenceIdeal.Stages.R1a m' c (Proc.devRef .tc Cert.ReferenceIdeal.main_v6) := by
  have e1 : StableHlo.launchContents m' c (Proc.devRef .tc Cert.ReferenceIdeal.main_arg1) = Cert.KernelIdeal.Gen.W0 m ρ c (Proc.devRef .tc Cert.KernelIdeal.main_arg1) := (hag c).2.1
  show StableHlo.after Cert.KernelIdeal.Gen.hostOps0 (Cert.KernelIdeal.Gen.W0 m ρ c) (Proc.devRef .tc Cert.KernelIdeal.main_v6) = StableHlo.after Cert.ReferenceIdeal.Stages.opsA1 (StableHlo.launchContents m' c) (Proc.devRef .tc Cert.ReferenceIdeal.main_v6)
  after_results
  rw [e1]
  rfl

set_option maxHeartbeats 8000000 in
theorem l1_v12 (hag : Agree m m') : KW1 m ρ c (Proc.devRef .tc Cert.KernelIdeal.main_v12) = Cert.ReferenceIdeal.Stages.R1a m' c (Proc.devRef .tc Cert.ReferenceIdeal.main_v12) := by
  have e1 : StableHlo.launchContents m' c (Proc.devRef .tc Cert.ReferenceIdeal.main_arg1) = Cert.KernelIdeal.Gen.W0 m ρ c (Proc.devRef .tc Cert.KernelIdeal.main_arg1) := (hag c).2.1
  show StableHlo.after Cert.KernelIdeal.Gen.hostOps0 (Cert.KernelIdeal.Gen.W0 m ρ c) (Proc.devRef .tc Cert.KernelIdeal.main_v12) = StableHlo.after Cert.ReferenceIdeal.Stages.opsA1 (StableHlo.launchContents m' c) (Proc.devRef .tc Cert.ReferenceIdeal.main_v12)
  after_results
  rw [e1]
  rfl

set_option maxHeartbeats 8000000 in
theorem l1_v13 (hag : Agree m m') : KW1 m ρ c (Proc.devRef .tc Cert.KernelIdeal.main_v13) = Cert.ReferenceIdeal.Stages.R1a m' c (Proc.devRef .tc Cert.ReferenceIdeal.main_v13) := by
  have e1 : StableHlo.launchContents m' c (Proc.devRef .tc Cert.ReferenceIdeal.main_arg1) = Cert.KernelIdeal.Gen.W0 m ρ c (Proc.devRef .tc Cert.KernelIdeal.main_arg1) := (hag c).2.1
  show StableHlo.after Cert.KernelIdeal.Gen.hostOps0 (Cert.KernelIdeal.Gen.W0 m ρ c) (Proc.devRef .tc Cert.KernelIdeal.main_v13) = StableHlo.after Cert.ReferenceIdeal.Stages.opsA1 (StableHlo.launchContents m' c) (Proc.devRef .tc Cert.ReferenceIdeal.main_v13)
  after_results
  rw [e1]
  rfl

set_option maxHeartbeats 8000000 in
theorem l1_c2 : KW1 m ρ c (Proc.devRef .tc Cert.KernelIdeal.main_cst_2) = Cert.ReferenceIdeal.Stages.R1a m' c (Proc.devRef .tc Cert.ReferenceIdeal.main_cst_2) := by
  show StableHlo.after Cert.KernelIdeal.Gen.hostOps0 (Cert.KernelIdeal.Gen.W0 m ρ c) (Proc.devRef .tc Cert.KernelIdeal.main_cst_2) = StableHlo.after Cert.ReferenceIdeal.Stages.opsA1 (StableHlo.launchContents m' c) (Proc.devRef .tc Cert.ReferenceIdeal.main_cst_2)
  after_results

set_option maxHeartbeats 8000000 in
theorem l1_a0 (hag : Agree m m') : KW1 m ρ c (Proc.devRef .tc Cert.KernelIdeal.main_arg0) = Cert.ReferenceIdeal.Stages.R1a m' c (Proc.devRef .tc Cert.ReferenceIdeal.main_arg0) := by
  obtain ⟨g0, g1, g2, g3, g4, g5, g6, g7⟩ := hag c
  show StableHlo.after Cert.KernelIdeal.Gen.hostOps0 (Cert.KernelIdeal.Gen.W0 m ρ c) (Proc.devRef .tc Cert.KernelIdeal.main_arg0) = StableHlo.after Cert.ReferenceIdeal.Stages.opsA1 (StableHlo.launchContents m' c) (Proc.devRef .tc Cert.ReferenceIdeal.main_arg0)
  after_results
  exact g0.symm

set_option maxHeartbeats 8000000 in
theorem l1_a2 (hag : Agree m m') : KW1 m ρ c (Proc.devRef .tc Cert.KernelIdeal.main_arg2) = Cert.ReferenceIdeal.Stages.R1a m' c (Proc.devRef .tc Cert.ReferenceIdeal.main_arg2) := by
  obtain ⟨g0, g1, g2, g3, g4, g5, g6, g7⟩ := hag c
  show StableHlo.after Cert.KernelIdeal.Gen.hostOps0 (Cert.KernelIdeal.Gen.W0 m ρ c) (Proc.devRef .tc Cert.KernelIdeal.main_arg2) = StableHlo.after Cert.ReferenceIdeal.Stages.opsA1 (StableHlo.launchContents m' c) (Proc.devRef .tc Cert.ReferenceIdeal.main_arg2)
  after_results
  exact g2.symm

set_option maxHeartbeats 8000000 in
theorem l1_a3 (hag : Agree m m') : KW1 m ρ c (Proc.devRef .tc Cert.KernelIdeal.main_arg3) = Cert.ReferenceIdeal.Stages.R1a m' c (Proc.devRef .tc Cert.ReferenceIdeal.main_arg3) := by
  obtain ⟨g0, g1, g2, g3, g4, g5, g6, g7⟩ := hag c
  show StableHlo.after Cert.KernelIdeal.Gen.hostOps0 (Cert.KernelIdeal.Gen.W0 m ρ c) (Proc.devRef .tc Cert.KernelIdeal.main_arg3) = StableHlo.after Cert.ReferenceIdeal.Stages.opsA1 (StableHlo.launchContents m' c) (Proc.devRef .tc Cert.ReferenceIdeal.main_arg3)
  after_results
  exact g3.symm

set_option maxHeartbeats 8000000 in
theorem l1_a4 (hag : Agree m m') : KW1 m ρ c (Proc.devRef .tc Cert.KernelIdeal.main_arg4) = Cert.ReferenceIdeal.Stages.R1a m' c (Proc.devRef .tc Cert.ReferenceIdeal.main_arg4) := by
  obtain ⟨g0, g1, g2, g3, g4, g5, g6, g7⟩ := hag c
  show StableHlo.after Cert.KernelIdeal.Gen.hostOps0 (Cert.KernelIdeal.Gen.W0 m ρ c) (Proc.devRef .tc Cert.KernelIdeal.main_arg4) = StableHlo.after Cert.ReferenceIdeal.Stages.opsA1 (StableHlo.launchContents m' c) (Proc.devRef .tc Cert.ReferenceIdeal.main_arg4)
  after_results
  exact g4.symm

set_option maxHeartbeats 8000000 in
theorem l1_a5 (hag : Agree m m') : KW1 m ρ c (Proc.devRef .tc Cert.KernelIdeal.main_arg5) = Cert.ReferenceIdeal.Stages.R1a m' c (Proc.devRef .tc Cert.ReferenceIdeal.main_arg5) := by
  obtain ⟨g0, g1, g2, g3, g4, g5, g6, g7⟩ := hag c
  show StableHlo.after Cert.KernelIdeal.Gen.hostOps0 (Cert.KernelIdeal.Gen.W0 m ρ c) (Proc.devRef .tc Cert.KernelIdeal.main_arg5) = StableHlo.after Cert.ReferenceIdeal.Stages.opsA1 (StableHlo.launchContents m' c) (Proc.devRef .tc Cert.ReferenceIdeal.main_arg5)
  after_results
  exact g5.symm

set_option maxHeartbeats 8000000 in
theorem l1_a6 (hag : Agree m m') : KW1 m ρ c (Proc.devRef .tc Cert.KernelIdeal.main_arg6) = Cert.ReferenceIdeal.Stages.R1a m' c (Proc.devRef .tc Cert.ReferenceIdeal.main_arg6) := by
  obtain ⟨g0, g1, g2, g3, g4, g5, g6, g7⟩ := hag c
  show StableHlo.after Cert.KernelIdeal.Gen.hostOps0 (Cert.KernelIdeal.Gen.W0 m ρ c) (Proc.devRef .tc Cert.KernelIdeal.main_arg6) = StableHlo.after Cert.ReferenceIdeal.Stages.opsA1 (StableHlo.launchContents m' c) (Proc.devRef .tc Cert.ReferenceIdeal.main_arg6)
  after_results
  exact g6.symm

set_option maxHeartbeats 8000000 in
theorem l1_a7 (hag : Agree m m') : KW1 m ρ c (Proc.devRef .tc Cert.KernelIdeal.main_arg7) = Cert.ReferenceIdeal.Stages.R1a m' c (Proc.devRef .tc Cert.ReferenceIdeal.main_arg7) := by
  obtain ⟨g0, g1, g2, g3, g4, g5, g6, g7⟩ := hag c
  show StableHlo.after Cert.KernelIdeal.Gen.hostOps0 (Cert.KernelIdeal.Gen.W0 m ρ c) (Proc.devRef .tc Cert.KernelIdeal.main_arg7) = StableHlo.after Cert.ReferenceIdeal.Stages.opsA1 (StableHlo.launchContents m' c) (Proc.devRef .tc Cert.ReferenceIdeal.main_arg7)
  after_results
  exact g7.symm

/-- After the node degrees the two programs hold the same arrays. -/
theorem level1 (hag : Agree m m') : L1 m ρ m' c :=
  ⟨l1_v3 m ρ m' c hag, l1_v6 m ρ m' c hag, l1_v12 m ρ m' c hag, l1_v13 m ρ m' c hag, l1_c2 m ρ m' c, l1_a0 m ρ m' c hag, l1_a2 m ρ m' c hag, l1_a3 m ρ m' c hag, l1_a4 m ρ m' c hag, l1_a5 m ρ m' c hag, l1_a6 m ρ m' c hag, l1_a7 m ρ m' c hag⟩
end Cert.Bridge

end
-- ==== Proof.Bridge2.lean ====
/-
  Inside the bookkeeping, after the selection.

  Both programs keep the inverse square root of a node's degree where the degree is positive and put zero elsewhere, by the
  same selection.
-/
import proofs.«166022_j22273700397754_1_alg».proof.Proof.BridgeDefs

import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
theorem l2_v3 (h : L1 m ρ m' c) : KW2 m ρ c (Proc.devRef .tc Cert.KernelIdeal.main_v3) = Cert.ReferenceIdeal.Stages.R1b m' c (Proc.devRef .tc Cert.ReferenceIdeal.main_v3) := by
  show StableHlo.after Cert.KernelIdeal.Gen.hostOps0_1 (KW1 m ρ c) (Proc.devRef .tc Cert.KernelIdeal.main_v3) = StableHlo.after Cert.ReferenceIdeal.Stages.opsA2 (Cert.ReferenceIdeal.Stages.R1a m' c) (Proc.devRef .tc Cert.ReferenceIdeal.main_v3)
  after_results
  exact h.v3

set_option maxHeartbeats 8000000 in
theorem l2_v6 (h : L1 m ρ m' c) : KW2 m ρ c (Proc.devRef .tc Cert.KernelIdeal.main_v6) = Cert.ReferenceIdeal.Stages.R1b m' c (Proc.devRef .tc Cert.ReferenceIdeal.main_v6) := by
  show StableHlo.after Cert.KernelIdeal.Gen.hostOps0_1 (KW1 m ρ c) (Proc.devRef .tc Cert.KernelIdeal.main_v6) = StableHlo.after Cert.ReferenceIdeal.Stages.opsA2 (Cert.ReferenceIdeal.Stages.R1a m' c) (Proc.devRef .tc Cert.ReferenceIdeal.main_v6)
  after_results
  exact h.v6

set_option maxHeartbeats 8000000 in
theorem l2_a0 (h : L1 m ρ m' c) : KW2 m ρ c (Proc.devRef .tc Cert.KernelIdeal.main_arg0) = Cert.ReferenceIdeal.Stages.R1b m' c (Proc.devRef .tc Cert.ReferenceIdeal.main_arg0) := by
  show StableHlo.after Cert.KernelIdeal.Gen.hostOps0_1 (KW1 m ρ c) (Proc.devRef .tc Cert.KernelIdeal.main_arg0) = StableHlo.after Cert.ReferenceIdeal.Stages.opsA2 (Cert.ReferenceIdeal.Stages.R1a m' c) (Proc.devRef .tc Cert.ReferenceIdeal.main_arg0)
  after_results
  exact h.a0

set_option maxHeartbeats 8000000 in
theorem l2_a2 (h : L1 m ρ m' c) : KW2 m ρ c (Proc.devRef .tc Cert.KernelIdeal.main_arg2) = Cert.ReferenceIdeal.Stages.R1b m' c (Proc.devRef .tc Cert.ReferenceIdeal.main_arg2) := by
  show StableHlo.after Cert.KernelIdeal.Gen.hostOps0_1 (KW1 m ρ c) (Proc.devRef .tc Cert.KernelIdeal.main_arg2) = StableHlo.after Cert.ReferenceIdeal.Stages.opsA2 (Cert.ReferenceIdeal.Stages.R1a m' c) (Proc.devRef .tc Cert.ReferenceIdeal.main_arg2)
  after_results
  exact h.a2

set_option maxHeartbeats 8000000 in
theorem l2_a3 (h : L1 m ρ m' c) : KW2 m ρ c (Proc.devRef .tc Cert.KernelIdeal.main_arg3) = Cert.ReferenceIdeal.Stages.R1b m' c (Proc.devRef .tc Cert.ReferenceIdeal.main_arg3) := by
  show StableHlo.after Cert.KernelIdeal.Gen.hostOps0_1 (KW1 m ρ c) (Proc.devRef .tc Cert.KernelIdeal.main_arg3) = StableHlo.after Cert.ReferenceIdeal.Stages.opsA2 (Cert.ReferenceIdeal.Stages.R1a m' c) (Proc.devRef .tc Cert.ReferenceIdeal.main_arg3)
  after_results
  exact h.a3

set_option maxHeartbeats 8000000 in
theorem l2_a4 (h : L1 m ρ m' c) : KW2 m ρ c (Proc.devRef .tc Cert.KernelIdeal.main_arg4) = Cert.ReferenceIdeal.Stages.R1b m' c (Proc.devRef .tc Cert.ReferenceIdeal.main_arg4) := by
  show StableHlo.after Cert.KernelIdeal.Gen.hostOps0_1 (KW1 m ρ c) (Proc.devRef .tc Cert.KernelIdeal.main_arg4) = StableHlo.after Cert.ReferenceIdeal.Stages.opsA2 (Cert.ReferenceIdeal.Stages.R1a m' c) (Proc.devRef .tc Cert.ReferenceIdeal.main_arg4)
  after_results
  exact h.a4

set_option maxHeartbeats 8000000 in
theorem l2_a5 (h : L1 m ρ m' c) : KW2 m ρ c (Proc.devRef .tc Cert.KernelIdeal.main_arg5) = Cert.ReferenceIdeal.Stages.R1b m' c (Proc.devRef .tc Cert.ReferenceIdeal.main_arg5) := by
  show StableHlo.after Cert.KernelIdeal.Gen.hostOps0_1 (KW1 m ρ c) (Proc.devRef .tc Cert.KernelIdeal.main_arg5) = StableHlo.after Cert.ReferenceIdeal.Stages.opsA2 (Cert.ReferenceIdeal.Stages.R1a m' c) (Proc.devRef .tc Cert.ReferenceIdeal.main_arg5)
  after_results
  exact h.a5

set_option maxHeartbeats 8000000 in
theorem l2_a6 (h : L1 m ρ m' c) : KW2 m ρ c (Proc.devRef .tc Cert.KernelIdeal.main_arg6) = Cert.ReferenceIdeal.Stages.R1b m' c (Proc.devRef .tc Cert.ReferenceIdeal.main_arg6) := by
  show StableHlo.after Cert.KernelIdeal.Gen.hostOps0_1 (KW1 m ρ c) (Proc.devRef .tc Cert.KernelIdeal.main_arg6) = StableHlo.after Cert.ReferenceIdeal.Stages.opsA2 (Cert.ReferenceIdeal.Stages.R1a m' c) (Proc.devRef .tc Cert.ReferenceIdeal.main_arg6)
  after_results
  exact h.a6

set_option maxHeartbeats 8000000 in
theorem l2_a7 (h : L1 m ρ m' c) : KW2 m ρ c (Proc.devRef .tc Cert.KernelIdeal.main_arg7) = Cert.ReferenceIdeal.Stages.R1b m' c (Proc.devRef .tc Cert.ReferenceIdeal.main_arg7) := by
  show StableHlo.after Cert.KernelIdeal.Gen.hostOps0_1 (KW1 m ρ c) (Proc.devRef .tc Cert.KernelIdeal.main_arg7) = StableHlo.after Cert.ReferenceIdeal.Stages.opsA2 (Cert.ReferenceIdeal.Stages.R1a m' c) (Proc.devRef .tc Cert.ReferenceIdeal.main_arg7)
  after_results
  exact h.a7

set_option maxHeartbeats 8000000 in
/-- The nodes' values. -/
theorem l2_v14 (h : L1 m ρ m' c) : KW2 m ρ c (Proc.devRef .tc Cert.KernelIdeal.main_v14) = Cert.ReferenceIdeal.Stages.R1b m' c (Proc.devRef .tc Cert.ReferenceIdeal.main_v14) := by
  show StableHlo.after Cert.KernelIdeal.Gen.hostOps0_1 (KW1 m ρ c) (Proc.devRef .tc Cert.KernelIdeal.main_v14) = StableHlo.after Cert.ReferenceIdeal.Stages.opsA2 (Cert.ReferenceIdeal.Stages.R1a m' c) (Proc.devRef .tc Cert.ReferenceIdeal.main_v14)
  after_results
  rw [h.v12, h.v13, h.c2] <;> rfl

/-- After the selection the two programs hold the same arrays. -/
theorem level2 (h : L1 m ρ m' c) : L2 m ρ m' c :=
  ⟨l2_v3 m ρ m' c h, l2_v6 m ρ m' c h, l2_v14 m ρ m' c h, l2_a0 m ρ m' c h, l2_a2 m ρ m' c h, l2_a3 m ρ m' c h, l2_a4 m ρ m' c h, l2_a5 m ρ m' c h, l2_a6 m ρ m' c h, l2_a7 m ρ m' c h⟩
end Cert.Bridge

end
-- ==== Proof.Bridge3.lean ====
/-
  Boundary 1: after the graph bookkeeping.

  Both programs read the nodes' values at the edge sources and at the edge targets (an index below zero wrapped round by
  the number of nodes first) and multiply the two: the edge weights, by the same operations.  With the sources and
  targets these are all the bookkeeping the layers use; no argument has been touched.
-/
import proofs.«166022_j22273700397754_1_alg».proof.Proof.BridgeDefs

import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
theorem l3_v3 (h : L2 m ρ m' c) : Cert.KernelIdeal.Gen.W3 m ρ c (Proc.devRef .tc Cert.KernelIdeal.main_v3) = Cert.ReferenceIdeal.Stages.R1 m' c (Proc.devRef .tc Cert.ReferenceIdeal.main_v3) := by
  show StableHlo.after Cert.KernelIdeal.Gen.hostOps0_2 (KW2 m ρ c) (Proc.devRef .tc Cert.KernelIdeal.main_v3) = StableHlo.after Cert.ReferenceIdeal.Stages.opsA3 (Cert.ReferenceIdeal.Stages.R1b m' c) (Proc.devRef .tc Cert.ReferenceIdeal.main_v3)
  after_results
  exact h.v3

set_option maxHeartbeats 8000000 in
theorem l3_v6 (h : L2 m ρ m' c) : Cert.KernelIdeal.Gen.W3 m ρ c (Proc.devRef .tc Cert.KernelIdeal.main_v6) = Cert.ReferenceIdeal.Stages.R1 m' c (Proc.devRef .tc Cert.ReferenceIdeal.main_v6) := by
  show StableHlo.after Cert.KernelIdeal.Gen.hostOps0_2 (KW2 m ρ c) (Proc.devRef .tc Cert.KernelIdeal.main_v6) = StableHlo.after Cert.ReferenceIdeal.Stages.opsA3 (Cert.ReferenceIdeal.Stages.R1b m' c) (Proc.devRef .tc Cert.ReferenceIdeal.main_v6)
  after_results
  exact h.v6

set_option maxHeartbeats 8000000 in
theorem l3_a0 (h : L2 m ρ m' c) : Cert.KernelIdeal.Gen.W3 m ρ c (Proc.devRef .tc Cert.KernelIdeal.main_arg0) = Cert.ReferenceIdeal.Stages.R1 m' c (Proc.devRef .tc Cert.ReferenceIdeal.main_arg0) := by
  show StableHlo.after Cert.KernelIdeal.Gen.hostOps0_2 (KW2 m ρ c) (Proc.devRef .tc Cert.KernelIdeal.main_arg0) = StableHlo.after Cert.ReferenceIdeal.Stages.opsA3 (Cert.ReferenceIdeal.Stages.R1b m' c) (Proc.devRef .tc Cert.ReferenceIdeal.main_arg0)
  after_results
  exact h.a0

set_option maxHeartbeats 8000000 in
theorem l3_a2 (h : L2 m ρ m' c) : Cert.KernelIdeal.Gen.W3 m ρ c (Proc.devRef .tc Cert.KernelIdeal.main_arg2) = Cert.ReferenceIdeal.Stages.R1 m' c (Proc.devRef .tc Cert.ReferenceIdeal.main_arg2) := by
  show StableHlo.after Cert.KernelIdeal.Gen.hostOps0_2 (KW2 m ρ c) (Proc.devRef .tc Cert.KernelIdeal.main_arg2) = StableHlo.after Cert.ReferenceIdeal.Stages.opsA3 (Cert.ReferenceIdeal.Stages.R1b m' c) (Proc.devRef .tc Cert.ReferenceIdeal.main_arg2)
  after_results
  exact h.a2

set_option maxHeartbeats 8000000 in
theorem l3_a3 (h : L2 m ρ m' c) : Cert.KernelIdeal.Gen.W3 m ρ c (Proc.devRef .tc Cert.KernelIdeal.main_arg3) = Cert.ReferenceIdeal.Stages.R1 m' c (Proc.devRef .tc Cert.ReferenceIdeal.main_arg3) := by
  show StableHlo.after Cert.KernelIdeal.Gen.hostOps0_2 (KW2 m ρ c) (Proc.devRef .tc Cert.KernelIdeal.main_arg3) = StableHlo.after Cert.ReferenceIdeal.Stages.opsA3 (Cert.ReferenceIdeal.Stages.R1b m' c) (Proc.devRef .tc Cert.ReferenceIdeal.main_arg3)
  after_results
  exact h.a3

set_option maxHeartbeats 8000000 in
theorem l3_a4 (h : L2 m ρ m' c) : Cert.KernelIdeal.Gen.W3 m ρ c (Proc.devRef .tc Cert.KernelIdeal.main_arg4) = Cert.ReferenceIdeal.Stages.R1 m' c (Proc.devRef .tc Cert.ReferenceIdeal.main_arg4) := by
  show StableHlo.after Cert.KernelIdeal.Gen.hostOps0_2 (KW2 m ρ c) (Proc.devRef .tc Cert.KernelIdeal.main_arg4) = StableHlo.after Cert.ReferenceIdeal.Stages.opsA3 (Cert.ReferenceIdeal.Stages.R1b m' c) (Proc.devRef .tc Cert.ReferenceIdeal.main_arg4)
  after_results
  exact h.a4

set_option maxHeartbeats 8000000 in
theorem l3_a5 (h : L2 m ρ m' c) : Cert.KernelIdeal.Gen.W3 m ρ c (Proc.devRef .tc Cert.KernelIdeal.main_arg5) = Cert.ReferenceIdeal.Stages.R1 m' c (Proc.devRef .tc Cert.ReferenceIdeal.main_arg5) := by
  show StableHlo.after Cert.KernelIdeal.Gen.hostOps0_2 (KW2 m ρ c) (Proc.devRef .tc Cert.KernelIdeal.main_arg5) = StableHlo.after Cert.ReferenceIdeal.Stages.opsA3 (Cert.ReferenceIdeal.Stages.R1b m' c) (Proc.devRef .tc Cert.ReferenceIdeal.main_arg5)
  after_results
  exact h.a5

set_option maxHeartbeats 8000000 in
theorem l3_a6 (h : L2 m ρ m' c) : Cert.KernelIdeal.Gen.W3 m ρ c (Proc.devRef .tc Cert.KernelIdeal.main_arg6) = Cert.ReferenceIdeal.Stages.R1 m' c (Proc.devRef .tc Cert.ReferenceIdeal.main_arg6) := by
  show StableHlo.after Cert.KernelIdeal.Gen.hostOps0_2 (KW2 m ρ c) (Proc.devRef .tc Cert.KernelIdeal.main_arg6) = StableHlo.after Cert.ReferenceIdeal.Stages.opsA3 (Cert.ReferenceIdeal.Stages.R1b m' c) (Proc.devRef .tc Cert.ReferenceIdeal.main_arg6)
  after_results
  exact h.a6

set_option maxHeartbeats 8000000 in
theorem l3_a7 (h : L2 m ρ m' c) : Cert.KernelIdeal.Gen.W3 m ρ c (Proc.devRef .tc Cert.KernelIdeal.main_arg7) = Cert.ReferenceIdeal.Stages.R1 m' c (Proc.devRef .tc Cert.ReferenceIdeal.main_arg7) := by
  show StableHlo.after Cert.KernelIdeal.Gen.hostOps0_2 (KW2 m ρ c) (Proc.devRef .tc Cert.KernelIdeal.main_arg7) = StableHlo.after Cert.ReferenceIdeal.Stages.opsA3 (Cert.ReferenceIdeal.Stages.R1b m' c) (Proc.devRef .tc Cert.ReferenceIdeal.main_arg7)
  after_results
  exact h.a7

set_option maxHeartbeats 8000000 in
/-- The edge weights. -/
theorem l3_v29 (h : L2 m ρ m' c) : Cert.KernelIdeal.Gen.W3 m ρ c (Proc.devRef .tc Cert.KernelIdeal.main_v29) = Cert.ReferenceIdeal.Stages.R1 m' c (Proc.devRef .tc Cert.ReferenceIdeal.main_v29) := by
  show StableHlo.after Cert.KernelIdeal.Gen.hostOps0_2 (KW2 m ρ c) (Proc.devRef .tc Cert.KernelIdeal.main_v29) = StableHlo.after Cert.ReferenceIdeal.Stages.opsA3 (Cert.ReferenceIdeal.Stages.R1b m' c) (Proc.devRef .tc Cert.ReferenceIdeal.main_v29)
  after_results
  rw [h.v3, h.v6, h.v14]
  rfl

/-- After the bookkeeping the two programs hold the same sources, targets and weights, and the same arguments. -/
theorem level3 (h : L2 m ρ m' c) : L3 m ρ m' c :=
  ⟨l3_v3 m ρ m' c h, l3_v6 m ρ m' c h, l3_v29 m ρ m' c h, l3_a0 m ρ m' c h, l3_a2 m ρ m' c h, l3_a3 m ρ m' c h, l3_a4 m ρ m' c h, l3_a5 m ρ m' c h, l3_a6 m ρ m' c h, l3_a7 m ρ m' c h⟩
end Cert.Bridge

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibMatRows.lean ====
/-
  A matrix product computed one block of rows at a time is the whole product.

  Let X be an M × K matrix, W a K × N matrix, and let x0 be m consecutive rows of X (row p of x0 is row P of X).  The
  product of x0 with W accumulated into the zero matrix has, at (p, q), the sum over k of x0[p, k] · W[k, q]; the host's
  whole product X · W has, at (P, q), the sum over k of X[P, k] · W[k, q].  The two sums have equal terms, so a grid of
  row blocks that tiles X writes exactly the whole product.  On the extended reals nothing else is involved: no
  rounding, no order of summation.  All extents are variables; the records' own facts are hypotheses.
-/
import Idealize.ShloMosaic.Lib.Pipeline.Value
import Idealize.ShloMosaic.Lib.ValueIdx
import Idealize.ShloMosaic.PureOps.Ideal.Laws
import proofs.«166022_j22273700397754_1_alg».proof.Proof.LibLayout
import proofs.«166022_j22273700397754_1_alg».proof.Proof.LibHostDot

noncomputable section

namespace Cert.LibMatRows

open Idealize.ShloMosaic Idealize.ShloMosaic.ValueIdx

/-- Entry (p, q) of a block's product into zero is entry (P, q) of the whole host product, when row p of the block is
    row P of the whole left operand and the right operands agree on column q. -/
theorem block_entry {M m K N : ℕ} {φ₁ φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (W : FVec Ideal ⟨2, ![K, N]⟩ .f32)
    (x0 : FVec Ideal ⟨2, ![m, K]⟩ φ₁) (w0 : FVec Ideal ⟨2, ![K, N]⟩ φ₂)
    (p : Fin m) (q : Fin N) (P : Fin M)
    (hx : ∀ k : Fin K, x0 (ix2 p k) = X (ix2 P k)) (hw : ∀ k : Fin K, w0 (ix2 k q) = W (ix2 k q)) :
    matmul dB none x0 w0 (constant ⟨2, ![m, N]⟩ .f32 0x00000000#32) (ix2 p q)
      = Host.dotGeneral dW none X W (ix2 P q) := by
  rw [Cert.LibLayout.matmul_rows_cols_apply dB hrB hsB hlcB hrcB hl0B hr1B,
    Cert.LibHostDot.dotGeneral_rows_cols_apply dW hrW hsW hlcW hrcW hl0W hr1W]
  refine Finset.sum_congr rfl fun k _ => ?_
  rw [hx k, hw k]

end Cert.LibMatRows

end
-- ==== Proof.Region0.lean ====
/-
  Layer 1's matrix product, one block of 5000 rows at a time, is the whole product.

  At grid point t the body reads rows 5000·t … 5000·t + 4999 of the node features X (100000 × 4) and the whole weight
  matrix W (4 × 128) and writes back X_blk · W into the same rows of the output.  Entry (p, q) of that block is the sum
  over k of X[5000·t + p, k] · W[k, q], which is entry (5000·t + p, q) of the whole product X · W.  The twenty blocks
  tile the 100000 rows, so the output array ends as the whole product.  On the extended reals the narrowing to bf16
  is the identity and the sums have equal terms: nothing else is used.
-/
import proofs.«166022_j22273700397754_1_alg».proof.Proof.Gen.KernelIdeal.Frame
import proofs.«166022_j22273700397754_1_alg».proof.Proof.LibMatRows
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Idealize.ShloMosaic.Pipeline

/-- The block record's free coordinates: the left operand's row is the result's row, the right operand's column the
    result's column. -/
theorem blockDot_lhs0 (j : S5000x128.Idx) (k : dot_S5000x4_S4x128_S5000x128_1_0_0_1_n_n.contr.Idx) :
    (dot_S5000x4_S4x128_S5000x128_1_0_0_1_n_n.lhsIdx j k 0).val = (j 0).val := by
  unfold DotDims.lhsIdx
  rw [dif_neg (show ¬(0 : Fin S5000x4.rank) ∈ dot_S5000x4_S4x128_S5000x128_1_0_0_1_n_n.lhsBatch by decide),
    dif_pos (show (0 : Fin S5000x4.rank) ∈ dot_S5000x4_S4x128_S5000x128_1_0_0_1_n_n.lhsNonContracting by decide)]
  rfl
theorem blockDot_rhs1 (j : S5000x128.Idx) (k : dot_S5000x4_S4x128_S5000x128_1_0_0_1_n_n.contr.Idx) :
    (dot_S5000x4_S4x128_S5000x128_1_0_0_1_n_n.rhsIdx j k 1).val = (j 1).val := by
  unfold DotDims.rhsIdx
  rw [dif_neg (show ¬(1 : Fin S4x128.rank) ∈ dot_S5000x4_S4x128_S5000x128_1_0_0_1_n_n.rhsBatch by decide),
    dif_pos (show (1 : Fin S4x128.rank) ∈ dot_S5000x4_S4x128_S5000x128_1_0_0_1_n_n.rhsNonContracting by decide)]
  rfl

/-- The whole product in the host's spelling. -/
def whole (dW : DotDims S100000x4 S4x128 S100000x128) (X : FVec Ideal S100000x4 .f32) (W : FVec Ideal S4x128 .f32) :
    FVec Ideal S100000x128 .f32 :=
  Host.dotGeneral dW none X W

theorem hz : (![0, 0] : Fin 2 → Nat) = fun _ => 0 := funext fun a => by fin_cases a <;> rfl

/-- The printed index maps over the grid: the row-block windows sit at block t, the weights at block 0. -/
theorem idx_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

section Whole

variable (V : (c : Dev nD) → (b : Ref sig .tc) → Buf (Elt Ideal) ((c : Thread nD τ).loc b))
variable (dW : DotDims S100000x4 S4x128 S100000x128)
  (hrW : dW.contr.rank = 1) (hsW : dW.contr.size ⟨0, by omega⟩ = 4)
  (hlcW : dW.lhsContracting = [1]) (hrcW : dW.rhsContracting = [0])
  (hl0W : ∀ j k, (dW.lhsIdx j k 0).val = (j 0).val) (hr1W : ∀ j k, (dW.rhsIdx j k 1).val = (j 1).val)

include hrW hsW hlcW hrcW hl0W hr1W

/-- Entry (p, q) of the body's stored value is entry (P, q) of the whole product, when row p of the loaded block is
    row P of X and the loaded weights are the whole ones. -/
theorem pay_entry (X : FVec Ideal S100000x4 .f32) (W : FVec Ideal S4x128 .f32)
    (x0 : Vec Ideal S5000x4 .f32) (x1 : Vec Ideal S4x128 .f32)
    (p : Fin 5000) (q : Fin 128) (P : Fin 100000)
    (hx : ∀ k : Fin 4, x0 (ix2 p k) = X (ix2 P k)) (hw : ∀ k : Fin 4, x1 (ix2 k q) = W (ix2 k q)) :
    k0_pay1 x0 x1 (ix2 p q) = whole dW X W (ix2 P q) := by
  unfold k0_pay1 whole
  refine Cert.LibMatRows.block_entry dot_S5000x4_S4x128_S5000x128_1_0_0_1_n_n dW rfl rfl rfl rfl blockDot_lhs0 blockDot_rhs1
    hrW hsW hlcW hrcW hl0W hr1W X W _ _ p q P (fun k => ?_) (fun k => ?_)
  · rw [truncf_apply]; exact hx k
  · rw [truncf_apply]; exact hw k

/-- What point t writes back is block t of the whole product of the arrays as the region finds them. -/
theorem flushed_eq (c : Dev nD) (t : Fin cfg0.N) :
    (dat0 (F := Ideal) V c).flushed 2 t = ((cfg0.win 2).blk t).view.read (Elt Ideal)
      (whole dW (V c main_arg0) (V c main_arg2)) := by
  show (cfg0.win 2).cut (grid0.coords t) ((dat0 V c).after 2 t) = _
  rw [after0_2]
  unfold out0_2
  rw [View.canon_unit_zero hz]
  simp only [View.ld_unit_zero (S := S5000x4) hz, View.ld_unit_zero (S := S4x128) hz]
  obtain ⟨e0, e1, e2, e3, e4, e5⟩ := idx_facts t
  have ht : t.val < 20 := N_0 ▸ t.isLt
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = whole dW (V c main_arg0) (V c main_arg2) (((cfg0.win 2).blk t).view.emb (ix2 p q))
  have hemb : ((cfg0.win 2).blk t).view.emb (ix2 p q) = ix2 (⟨t.val * 5000 + p.val, by have := p.isLt; omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb]
  refine pay_entry dW hrW hsW hlcW hrcW hl0W hr1W (V c main_arg0) (V c main_arg2)
    (iblk0 V c 0 t) (iblk0 V c 1 t) p q _ (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 4 + 1 * k.val = k.val; omega
  · show V c main_arg2 (((cfg0.win 1).blk t).view.emb (ix2 k q)) = _
    refine congrArg (V c main_arg2) (funext fun a => Fin.ext ?_)
    match a with
    | ⟨0, _⟩ => show win0_1.index t (0 : Fin 2) * 4 + 1 * k.val = k.val; omega
    | ⟨1, _⟩ => show win0_1.index t (1 : Fin 2) * 128 + 1 * q.val = q.val; omega

omit hrW hsW hlcW hrcW hl0W hr1W in
/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

omit hrW hsW hlcW hrcW hl0W hr1W in
/-- Every row lies in the block of the point numbered by its quotient by 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨e0, e1, -⟩ := idx_facts t
  have tv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY after the region: the whole product of the arrays as the region finds them. -/
theorem final (c : Dev nD) :
    (dat0 (F := Ideal) V c).arrAt 2 cfg0.N = whole dW (V c main_arg0) (V c main_arg2) :=
  (dat0 (F := Ideal) V c).arrAt_eq_of_cover 2 _ (fun t _ => flushed_eq V dW hrW hsW hlcW hrcW hl0W hr1W c t) cover

end Whole

end Cert.KernelIdeal.Region0

end
-- ==== Proof.Bridge4.lean ====
/-
  Boundary 2: after layer 1's product.

  The kernel's first region writes X · W1 block of rows by block of rows; the reference makes the same product with one
  host operation.  Nothing else changes.
-/
import proofs.«166022_j22273700397754_1_alg».proof.Proof.BridgeDefs
import proofs.«166022_j22273700397754_1_alg».proof.Proof.Region0
import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- After layer 1's product. -/
theorem level4 (h : L3 m ρ m' c) : L4 m ρ m' c := by
  refine ⟨?_, ?_, ?_, ?_, ?_, ?_, ?_, ?_, ?_⟩
  · exact (Cert.KernelIdeal.Gen.W4_of_ne m ρ c Cert.KernelIdeal.main_v3 (by decide)).trans (h.v3.trans
      (by show _ = StableHlo.after Cert.ReferenceIdeal.Stages.opsB (Cert.ReferenceIdeal.Stages.R1 m' c) (Proc.devRef .tc Cert.ReferenceIdeal.main_v3); after_results))
  · exact (Cert.KernelIdeal.Gen.W4_of_ne m ρ c Cert.KernelIdeal.main_v6 (by decide)).trans (h.v6.trans
      (by show _ = StableHlo.after Cert.ReferenceIdeal.Stages.opsB (Cert.ReferenceIdeal.Stages.R1 m' c) (Proc.devRef .tc Cert.ReferenceIdeal.main_v6); after_results))
  · exact (Cert.KernelIdeal.Gen.W4_of_ne m ρ c Cert.KernelIdeal.main_v29 (by decide)).trans (h.v29.trans
      (by show _ = StableHlo.after Cert.ReferenceIdeal.Stages.opsB (Cert.ReferenceIdeal.Stages.R1 m' c) (Proc.devRef .tc Cert.ReferenceIdeal.main_v29); after_results))
  · exact (Cert.KernelIdeal.Gen.W4_of_ne m ρ c Cert.KernelIdeal.main_arg3 (by decide)).trans (h.a3.trans
      (by show _ = StableHlo.after Cert.ReferenceIdeal.Stages.opsB (Cert.ReferenceIdeal.Stages.R1 m' c) (Proc.devRef .tc Cert.ReferenceIdeal.main_arg3); after_results))
  · exact (Cert.KernelIdeal.Gen.W4_of_ne m ρ c Cert.KernelIdeal.main_arg4 (by decide)).trans (h.a4.trans
      (by show _ = StableHlo.after Cert.ReferenceIdeal.Stages.opsB (Cert.ReferenceIdeal.Stages.R1 m' c) (Proc.devRef .tc Cert.ReferenceIdeal.main_arg4); after_results))
  · exact (Cert.KernelIdeal.Gen.W4_of_ne m ρ c Cert.KernelIdeal.main_arg5 (by decide)).trans (h.a5.trans
      (by show _ = StableHlo.after Cert.ReferenceIdeal.Stages.opsB (Cert.ReferenceIdeal.Stages.R1 m' c) (Proc.devRef .tc Cert.ReferenceIdeal.main_arg5); after_results))
  · exact (Cert.KernelIdeal.Gen.W4_of_ne m ρ c Cert.KernelIdeal.main_arg6 (by decide)).trans (h.a6.trans
      (by show _ = StableHlo.after Cert.ReferenceIdeal.Stages.opsB (Cert.ReferenceIdeal.Stages.R1 m' c) (Proc.devRef .tc Cert.ReferenceIdeal.main_arg6); after_results))
  · exact (Cert.KernelIdeal.Gen.W4_of_ne m ρ c Cert.KernelIdeal.main_arg7 (by decide)).trans (h.a7.trans
      (by show _ = StableHlo.after Cert.ReferenceIdeal.Stages.opsB (Cert.ReferenceIdeal.Stages.R1 m' c) (Proc.devRef .tc Cert.ReferenceIdeal.main_arg7); after_results))
  · refine ((Cert.KernelIdeal.Gen.W4_arr m ρ c 2).trans (Cert.KernelIdeal.Region0.final (Cert.KernelIdeal.Gen.V3 m ρ) Cert.ReferenceIdeal.dot_S100000x4_S4x128_S100000x128_1_0_0_1_n_n rfl rfl rfl rfl
      Cert.ReferenceIdeal.Stages.dot4_lhs0 Cert.ReferenceIdeal.Stages.dot4_rhs1 c)).trans ?_
    show Cert.KernelIdeal.Region0.whole Cert.ReferenceIdeal.dot_S100000x4_S4x128_S100000x128_1_0_0_1_n_n (Cert.KernelIdeal.Gen.W3 m ρ c (Proc.devRef .tc Cert.KernelIdeal.main_arg0)) (Cert.KernelIdeal.Gen.W3 m ρ c (Proc.devRef .tc Cert.KernelIdeal.main_arg2))
      = StableHlo.after Cert.ReferenceIdeal.Stages.opsB (Cert.ReferenceIdeal.Stages.R1 m' c) (Proc.devRef .tc Cert.ReferenceIdeal.main_v30)
    rw [h.a0, h.a2]
    after_results
    rfl
end Cert.Bridge

end
-- ==== Proof.LibCombine.lean ====
/-
  Sums of per-relation contributions and bias rows, rectified: the vector unit's spelling against the host's.

  A bias row r (a 1 × n matrix) broadcast down the rows of a matrix has r[0, q] at entry (p, q), whether it is spelt as a
  trailing-axes broadcast of a block or as a broadcast along named axes of the whole matrix.  The kernel adds three
  contributions and three bias rows from left to right, (((((x0 + y0) + x1) + y1) + x2) + y2); the host adds each
  contribution to its own bias first and then adds the three, ((x0 + y0) + (x1 + y1)) + (x2 + y2).  Addition on the
  extended reals is associative (and commutative), with no finiteness needed, so the two agree entry by entry; the
  maximum against zero is then taken of equal numbers.  A vector reshaped to one row is the same row as the vector given
  a leading unit axis.  All extents are variables.
-/
import Idealize.ShloMosaic.PureOps.Ideal.Laws
import Idealize.ShloMosaic.Lib.ValueIdx
import Idealize.ShloMosaic.Lib.Pipeline.Value

noncomputable section

namespace Cert.LibCombine

open Idealize.ShloMosaic Idealize.ShloMosaic.ValueIdx

/-- A coordinate below an extent is itself, or zero when the extent is one. -/
theorem val_eq_ite {n : Nat} (a : Fin n) : a.val = if n = 1 then 0 else a.val := by
  split
  · have := a.isLt; omega
  · rfl

/-- A row (1 × n) cast to its own shape and broadcast down a rows reads, at (p, q), the row at q. -/
theorem blockRow_apply {α : Type} {a n : Nat} (r : (⟨2, ![1, n]⟩ : Shape).Idx → α)
    (h1 : (⟨2, ![1, n]⟩ : Shape).ShapeCasts ⟨2, ![1, n]⟩) (h2 : (⟨2, ![1, n]⟩ : Shape).Broadcasts ⟨2, ![a, n]⟩)
    (p : Fin a) (q : Fin n) :
    broadcastTo ⟨2, ![a, n]⟩ (shapeCast ⟨2, ![1, n]⟩ r h1) h2 (ix2 p q) = r (ix2 0 q) := by
  rw [shapeCast_self]
  exact broadcastTo_apply _ h2 (ix2 p q) (ix2 0 q) (fun c => by
    match c with
    | ⟨0, _⟩ => show (0 : Nat) = if (1 : Nat) = 1 then 0 else _; rw [if_pos rfl]
    | ⟨1, _⟩ => exact val_eq_ite (n := n) q)

/-- A row (1 × n) broadcast along both axes down A rows reads, at (P, q), the row at q. -/
theorem wholeRow_apply {α : Type} {A n : Nat} (r : (⟨2, ![1, n]⟩ : Shape).Idx → α)
    (h4 : (⟨2, ![1, n]⟩ : Shape).BroadcastsInDim ⟨2, ![A, n]⟩ (![0, 1] : Fin 2 → Fin 2)) (P : Fin A) (q : Fin n) :
    broadcastInDim ⟨2, ![A, n]⟩ ![0, 1] h4 r (ix2 P q) = r (ix2 0 q) :=
  broadcastInDim_apply _ h4 _ (ix2 P q) (ix2 0 q) (fun c => by
    match c with
    | ⟨0, _⟩ => show (0 : Nat) = if (1 : Nat) = 1 then 0 else _; rw [if_pos rfl]
    | ⟨1, _⟩ => exact val_eq_ite (n := n) q)

/-- A vector of length n reshaped to one row is the vector given a leading unit axis. -/
theorem reshapeRow_eq {α : Type} {n : Nat} (b : (⟨1, ![n]⟩ : Shape).Idx → α)
    (h0 : (⟨1, ![n]⟩ : Shape).ShapeCasts ⟨2, ![1, n]⟩)
    (h3 : (⟨1, ![n]⟩ : Shape).BroadcastsInDim ⟨2, ![1, n]⟩ (![1] : Fin 1 → Fin 2)) :
    shapeCast ⟨2, ![1, n]⟩ b h0 = broadcastInDim ⟨2, ![1, n]⟩ ![1] h3 b := by
  funext i
  obtain ⟨z, q, rfl⟩ : ∃ (z : Fin 1) (q : Fin n), i = ix2 z q := ⟨i 0, i 1, eq_ix2 i⟩
  rw [broadcastInDim_apply _ h3 b (ix2 z q) (ix1 q) (fun c => by
    match c with
    | ⟨0, _⟩ => exact val_eq_ite (n := n) q)]
  refine shapeCast_apply b h0 (ix2 z q) (ix1 q) ?_
  rw [Shape.rowMajor_val_one, Shape.rowMajor_val_two]
  have hz : z.val = 0 := by have := z.isLt; omega
  show q.val = z.val * n + q.val
  rw [hz]; omega

/-- THREE CONTRIBUTIONS WITH THEIR BIAS ROWS, RECTIFIED, at one entry: the kernel's left-to-right sum over a block is the
    host's grouped sum over the whole matrix, when the block's entry (p, q) is the whole's entry (P, q) and the block's bias
    rows are the whole bias rows at column q. -/
theorem combine3_entry {a A n : Nat} (a0 a1 a2 : FVec Ideal ⟨2, ![a, n]⟩ .f32) (r0 r1 r2 : FVec Ideal ⟨2, ![1, n]⟩ .f32)
    (A0 A1 A2 : FVec Ideal ⟨2, ![A, n]⟩ .f32) (R0 R1 R2 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A)
    (e0 : a0 (ix2 p q) = A0 (ix2 P q)) (e1 : a1 (ix2 p q) = A1 (ix2 P q)) (e2 : a2 (ix2 p q) = A2 (ix2 P q))
    (f0 : r0 (ix2 0 q) = R0 (ix2 0 q)) (f1 : r1 (ix2 0 q) = R1 (ix2 0 q)) (f2 : r2 (ix2 0 q) = R2 (ix2 0 q)) :
    maximumf (addf (addf (addf (addf (addf a0
        (broadcastTo ⟨2, ![a, n]⟩ (shapeCast ⟨2, ![1, n]⟩ r0 h1) h2)) a1)
        (broadcastTo ⟨2, ![a, n]⟩ (shapeCast ⟨2, ![1, n]⟩ r1 h1) h2)) a2)
        (broadcastTo ⟨2, ![a, n]⟩ (shapeCast ⟨2, ![1, n]⟩ r2 h1) h2))
        (broadcast ⟨2, ![a, n]⟩ (Scalar.ofBits (F := Ideal) .f32 0x00000000#32)) (ix2 p q)
      = maximumf (addf (addf (addf A0 (broadcastInDim ⟨2, ![A, n]⟩ ![0, 1] h4 R0))
          (addf A1 (broadcastInDim ⟨2, ![A, n]⟩ ![0, 1] h4 R1)))
          (addf A2 (broadcastInDim ⟨2, ![A, n]⟩ ![0, 1] h4 R2)))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, blockRow_apply r1 h1 h2 p q, blockRow_apply r2 h1 h2 p q,
    wholeRow_apply R0 h4 P q, wholeRow_apply R1 h4 P q, wholeRow_apply R2 h4 P q, e0, e1, e2, f0, f1, f2]
  simp only [Ideal.addf_def, add_assoc]

/-- ONE CONTRIBUTION WITH ITS BIAS ROW, RECTIFIED, at one entry. -/
theorem combine1_entry {a A n : Nat} (a0 : FVec Ideal ⟨2, ![a, n]⟩ .f32) (r0 : FVec Ideal ⟨2, ![1, n]⟩ .f32)
    (A0 : FVec Ideal ⟨2, ![A, n]⟩ .f32) (R0 : FVec Ideal ⟨2, ![1, n]⟩ .f32)
    (h1 : (⟨2, ![1, n]⟩ : Shape).ShapeCasts ⟨2, ![1, n]⟩) (h2 : (⟨2, ![1, n]⟩ : Shape).Broadcasts ⟨2, ![a, n]⟩)
    (h4 : (⟨2, ![1, n]⟩ : Shape).BroadcastsInDim ⟨2, ![A, n]⟩ (![0, 1] : Fin 2 → Fin 2))
    (h5 : (⟨0, ![]⟩ : Shape).BroadcastsInDim ⟨2, ![A, n]⟩ (![] : Fin 0 → Fin 2))
    (p : Fin a) (q : Fin n) (P : Fin A) (e0 : a0 (ix2 p q) = A0 (ix2 P q)) (f0 : r0 (ix2 0 q) = R0 (ix2 0 q)) :
    maximumf (addf a0 (broadcastTo ⟨2, ![a, n]⟩ (shapeCast ⟨2, ![1, n]⟩ r0 h1) h2))
        (broadcast ⟨2, ![a, n]⟩ (Scalar.ofBits (F := Ideal) .f32 0x00000000#32)) (ix2 p q)
      = maximumf (addf A0 (broadcastInDim ⟨2, ![A, n]⟩ ![0, 1] h4 R0))
          (broadcastInDim ⟨2, ![A, n]⟩ ![] h5 (constant (F := Ideal) ⟨0, ![]⟩ .f32 0x00000000#32)) (ix2 P q) := by
  simp only [maximumf, addf]
  refine congrArg₂ FloatOps.maximumf ?_ rfl
  rw [blockRow_apply r0 h1 h2 p q, wholeRow_apply R0 h4 P q, e0, f0]

end Cert.LibCombine

end
-- ==== Proof.Bridge5.lean ====
/-
  Boundary 3: after layer 1's aggregation.

  Both programs gather the rows of the newest array at the edge sources, scale each row by its edge's weight and add the
  rows up at the edge targets, with the same operations; and both lay the next bias as a 1 × 128 row, the kernel's program
  by a reshape, the reference by a broadcast along a new leading axis: the same row.
-/
import proofs.«166022_j22273700397754_1_alg».proof.Proof.BridgeDefs
import proofs.«166022_j22273700397754_1_alg».proof.Proof.LibCombine
import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
theorem l5_v3 (h : L4 m ρ m' c) : Cert.KernelIdeal.Gen.W5 m ρ c (Proc.devRef .tc Cert.KernelIdeal.main_v3) = Cert.ReferenceIdeal.Stages.R3 m' c (Proc.devRef .tc Cert.ReferenceIdeal.main_v3) := by
  show StableHlo.after Cert.KernelIdeal.Gen.hostOps1 (Cert.KernelIdeal.Gen.W4 m ρ c) (Proc.devRef .tc Cert.KernelIdeal.main_v3)
      = StableHlo.after Cert.ReferenceIdeal.Stages.opsC (Cert.ReferenceIdeal.Stages.R2 m' c) (Proc.devRef .tc Cert.ReferenceIdeal.main_v3)
  after_results
  exact h.v3

set_option maxHeartbeats 8000000 in
theorem l5_v6 (h : L4 m ρ m' c) : Cert.KernelIdeal.Gen.W5 m ρ c (Proc.devRef .tc Cert.KernelIdeal.main_v6) = Cert.ReferenceIdeal.Stages.R3 m' c (Proc.devRef .tc Cert.ReferenceIdeal.main_v6) := by
  show StableHlo.after Cert.KernelIdeal.Gen.hostOps1 (Cert.KernelIdeal.Gen.W4 m ρ c) (Proc.devRef .tc Cert.KernelIdeal.main_v6)
      = StableHlo.after Cert.ReferenceIdeal.Stages.opsC (Cert.ReferenceIdeal.Stages.R2 m' c) (Proc.devRef .tc Cert.ReferenceIdeal.main_v6)
  after_results
  exact h.v6

set_option maxHeartbeats 8000000 in
theorem l5_v29 (h : L4 m ρ m' c) : Cert.KernelIdeal.Gen.W5 m ρ c (Proc.devRef .tc Cert.KernelIdeal.main_v29) = Cert.ReferenceIdeal.Stages.R3 m' c (Proc.devRef .tc Cert.ReferenceIdeal.main_v29) := by
  show StableHlo.after Cert.KernelIdeal.Gen.hostOps1 (Cert.KernelIdeal.Gen.W4 m ρ c) (Proc.devRef .tc Cert.KernelIdeal.main_v29)
      = StableHlo.after Cert.ReferenceIdeal.Stages.opsC (Cert.ReferenceIdeal.Stages.R2 m' c) (Proc.devRef .tc Cert.ReferenceIdeal.main_v29)
  after_results
  exact h.v29

set_option maxHeartbeats 8000000 in
theorem l5_a4 (h : L4 m ρ m' c) : Cert.KernelIdeal.Gen.W5 m ρ c (Proc.devRef .tc Cert.KernelIdeal.main_arg4) = Cert.ReferenceIdeal.Stages.R3 m' c (Proc.devRef .tc Cert.ReferenceIdeal.main_arg4) := by
  show StableHlo.after Cert.KernelIdeal.Gen.hostOps1 (Cert.KernelIdeal.Gen.W4 m ρ c) (Proc.devRef .tc Cert.KernelIdeal.main_arg4)
      = StableHlo.after Cert.ReferenceIdeal.Stages.opsC (Cert.ReferenceIdeal.Stages.R2 m' c) (Proc.devRef .tc Cert.ReferenceIdeal.main_arg4)
  after_results
  exact h.a4

set_option maxHeartbeats 8000000 in
theorem l5_a5 (h : L4 m ρ m' c) : Cert.KernelIdeal.Gen.W5 m ρ c (Proc.devRef .tc Cert.KernelIdeal.main_arg5) = Cert.ReferenceIdeal.Stages.R3 m' c (Proc.devRef .tc Cert.ReferenceIdeal.main_arg5) := by
  show StableHlo.after Cert.KernelIdeal.Gen.hostOps1 (Cert.KernelIdeal.Gen.W4 m ρ c) (Proc.devRef .tc Cert.KernelIdeal.main_arg5)
      = StableHlo.after Cert.ReferenceIdeal.Stages.opsC (Cert.ReferenceIdeal.Stages.R2 m' c) (Proc.devRef .tc Cert.ReferenceIdeal.main_arg5)
  after_results
  exact h.a5

set_option maxHeartbeats 8000000 in
theorem l5_a6 (h : L4 m ρ m' c) : Cert.KernelIdeal.Gen.W5 m ρ c (Proc.devRef .tc Cert.KernelIdeal.main_arg6) = Cert.ReferenceIdeal.Stages.R3 m' c (Proc.devRef .tc Cert.ReferenceIdeal.main_arg6) := by
  show StableHlo.after Cert.KernelIdeal.Gen.hostOps1 (Cert.KernelIdeal.Gen.W4 m ρ c) (Proc.devRef .tc Cert.KernelIdeal.main_arg6)
      = StableHlo.after Cert.ReferenceIdeal.Stages.opsC (Cert.ReferenceIdeal.Stages.R2 m' c) (Proc.devRef .tc Cert.ReferenceIdeal.main_arg6)
  after_results
  exact h.a6

set_option maxHeartbeats 8000000 in
theorem l5_a7 (h : L4 m ρ m' c) : Cert.KernelIdeal.Gen.W5 m ρ c (Proc.devRef .tc Cert.KernelIdeal.main_arg7) = Cert.ReferenceIdeal.Stages.R3 m' c (Proc.devRef .tc Cert.ReferenceIdeal.main_arg7) := by
  show StableHlo.after Cert.KernelIdeal.Gen.hostOps1 (Cert.KernelIdeal.Gen.W4 m ρ c) (Proc.devRef .tc Cert.KernelIdeal.main_arg7)
      = StableHlo.after Cert.ReferenceIdeal.Stages.opsC (Cert.ReferenceIdeal.Stages.R2 m' c) (Proc.devRef .tc Cert.ReferenceIdeal.main_arg7)
  after_results
  exact h.a7

set_option maxHeartbeats 8000000 in
/-- The aggregated array. -/
theorem l5_h43 (h : L4 m ρ m' c) : Cert.KernelIdeal.Gen.W5 m ρ c (Proc.devRef .tc Cert.KernelIdeal.main_v43) = Cert.ReferenceIdeal.Stages.R3 m' c (Proc.devRef .tc Cert.ReferenceIdeal.main_v43) := by
  show StableHlo.after Cert.KernelIdeal.Gen.hostOps1 (Cert.KernelIdeal.Gen.W4 m ρ c) (Proc.devRef .tc Cert.KernelIdeal.main_v43)
      = StableHlo.after Cert.ReferenceIdeal.Stages.opsC (Cert.ReferenceIdeal.Stages.R2 m' c) (Proc.devRef .tc Cert.ReferenceIdeal.main_v43)
  after_results
  rw [h.v3, h.v6, h.v29, h.h30]
  rfl

set_option maxHeartbeats 8000000 in
/-- The bias laid as a row. -/
theorem l5_r44 (h : L4 m ρ m' c) : Cert.KernelIdeal.Gen.W5 m ρ c (Proc.devRef .tc Cert.KernelIdeal.main_v44) = Cert.ReferenceIdeal.Stages.R3 m' c (Proc.devRef .tc Cert.ReferenceIdeal.main_v44) := by
  show StableHlo.after Cert.KernelIdeal.Gen.hostOps1 (Cert.KernelIdeal.Gen.W4 m ρ c) (Proc.devRef .tc Cert.KernelIdeal.main_v44)
      = StableHlo.after Cert.ReferenceIdeal.Stages.opsC (Cert.ReferenceIdeal.Stages.R2 m' c) (Proc.devRef .tc Cert.ReferenceIdeal.main_v44)
  after_results
  rw [h.a3]
  exact Cert.LibCombine.reshapeRow_eq _ _ _

/-- After the aggregation. -/
theorem level5 (h : L4 m ρ m' c) : L5 m ρ m' c :=
  ⟨l5_v3 m ρ m' c h, l5_v6 m ρ m' c h, l5_v29 m ρ m' c h, l5_a4 m ρ m' c h, l5_a5 m ρ m' c h, l5_a6 m ρ m' c h, l5_a7 m ρ m' c h, l5_h43 m ρ m' c h, l5_r44 m ρ m' c h⟩
end Cert.Bridge

end
-- ==== Proof.Region1.lean ====
/-
  Layer 2's dense step, one block of 5000 rows at a time, is the dense step on the whole matrix.

  At grid point t the body reads rows 5000·t … 5000·t + 4999 of the aggregated features A, the bias row r (1 × 128) and
  the whole weight matrix W (128 × 128), and writes back max(A_blk + r, 0) · W_blk into the same rows of the output.
  Entry (p, q) of that block is the sum over k of max(A[5000·t + p, k] + r[0, k], 0) · W[k, q], which is entry
  (5000·t + p, q) of the product of the rectified whole matrix with W.  The twenty blocks tile the 100000 rows, so the
  output array ends as the whole product.  On the extended reals the narrowing to bf16 is the identity and the sums
  have equal terms: no law beyond that is used, and no finiteness.
-/
import proofs.«166022_j22273700397754_1_alg».proof.Proof.Gen.KernelIdeal.Frame
import proofs.«166022_j22273700397754_1_alg».proof.Proof.LibMatRows
import proofs.«166022_j22273700397754_1_alg».proof.Proof.LibCombine
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Idealize.ShloMosaic.Pipeline

/-- The dense step on the whole matrix in the host's spelling: rectify A plus the bias row, multiply with W. -/
def layer (dW : DotDims S100000x128 S128x128 S100000x128)
    (h4 : S1x128.BroadcastsInDim S100000x128 (![0, 1] : Fin 2 → Fin 2)) (h5 : S_.BroadcastsInDim S100000x128 (![] : Fin 0 → Fin 2))
    (A : FVec Ideal S100000x128 .f32) (R : FVec Ideal S1x128 .f32) (W : FVec Ideal S128x128 .f32) : FVec Ideal S100000x128 .f32 :=
  Host.dotGeneral dW none
    (maximumf (addf A (broadcastInDim S100000x128 ![0, 1] h4 R))
      (broadcastInDim S100000x128 ![] h5 (constant (F := Ideal) S_ .f32 0x00000000#32))) W

/-- The block record's free coordinates: the left operand's row is the result's row, the right operand's column the
    result's column. -/
theorem blockDot_lhs0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem blockDot_rhs1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

section Whole

variable (dW : DotDims S100000x128 S128x128 S100000x128)
  (hrW : dW.contr.rank = 1) (hsW : dW.contr.size ⟨0, by omega⟩ = 128)
  (hlcW : dW.lhsContracting = [1]) (hrcW : dW.rhsContracting = [0])
  (hl0W : ∀ j k, (dW.lhsIdx j k 0).val = (j 0).val) (hr1W : ∀ j k, (dW.rhsIdx j k 1).val = (j 1).val)
  (h4 : S1x128.BroadcastsInDim S100000x128 (![0, 1] : Fin 2 → Fin 2)) (h5 : S_.BroadcastsInDim S100000x128 (![] : Fin 0 → Fin 2))

include hrW hsW hlcW hrcW hl0W hr1W

/-- Entry (p, q) of the body's stored value is entry (P, q) of the whole dense step, when row p of the loaded block is
    row P of A and the loaded bias row and weights are the whole ones. -/
theorem pay_entry (A : FVec Ideal S100000x128 .f32) (R : FVec Ideal S1x128 .f32) (W : FVec Ideal S128x128 .f32)
    (x0 : Vec Ideal S5000x128 .f32) (x1 : Vec Ideal S1x128 .f32) (x2 : Vec Ideal S128x128 .f32)
    (p : Fin 5000) (q : Fin 128) (P : Fin 100000)
    (hx : ∀ k : Fin 128, x0 (ix2 p k) = A (ix2 P k)) (hr : ∀ k : Fin 128, x1 (ix2 0 k) = R (ix2 0 k))
    (hw : ∀ k : Fin 128, x2 (ix2 k q) = W (ix2 k q)) :
    k1_pay1 x0 x1 x2 (ix2 p q) = layer dW h4 h5 A R W (ix2 P q) := by
  unfold k1_pay1 layer
  refine Cert.LibMatRows.block_entry dot_S5000x128_S128x128_S5000x128_1_0_0_1_n_n dW rfl rfl rfl rfl blockDot_lhs0 blockDot_rhs1
    hrW hsW hlcW hrcW hl0W hr1W _ W _ _ p q P (fun k => ?_) (fun k => ?_)
  · rw [truncf_apply]
    exact Cert.LibCombine.combine1_entry _ x1 A R shapeCasts_S1x128_S1x128 broadcasts_S1x128_S5000x128 h4 h5 p k P
      (by rw [shapeCast_self]; exact hx k) (hr k)
  · rw [truncf_apply]; exact hw k

end Whole

/-! ## From blocks to the array -/

theorem hz : (![0, 0] : Fin 2 → Nat) = fun _ => 0 := funext fun a => by fin_cases a <;> rfl

/-- The printed index maps over the grid: the row-block windows sit at block t, the bias row and the weights at block 0. -/
theorem idx_facts : ∀ t : Fin cfg1.N, win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

section Whole

variable (V : (c : Dev nD) → (b : Ref sig .tc) → Buf (Elt Ideal) ((c : Thread nD τ).loc b))
variable (dW : DotDims S100000x128 S128x128 S100000x128)
  (hrW : dW.contr.rank = 1) (hsW : dW.contr.size ⟨0, by omega⟩ = 128)
  (hlcW : dW.lhsContracting = [1]) (hrcW : dW.rhsContracting = [0])
  (hl0W : ∀ j k, (dW.lhsIdx j k 0).val = (j 0).val) (hr1W : ∀ j k, (dW.rhsIdx j k 1).val = (j 1).val)
  (h4 : S1x128.BroadcastsInDim S100000x128 (![0, 1] : Fin 2 → Fin 2)) (h5 : S_.BroadcastsInDim S100000x128 (![] : Fin 0 → Fin 2))

include hrW hsW hlcW hrcW hl0W hr1W

/-- What point t writes back is block t of the whole dense step of the arrays as the region finds them. -/
theorem flushed_eq (c : Dev nD) (t : Fin cfg1.N) :
    (dat1 (F := Ideal) V c).flushed 3 t = ((cfg1.win 3).blk t).view.read (Elt Ideal)
      (layer dW h4 h5 (V c main_v43) (V c main_v44) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx_facts t
  have ht : t.val < 20 := N_1 ▸ t.isLt
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = layer dW h4 h5 (V c main_v43) (V c main_v44) (V c main_arg4) (((cfg1.win 3).blk t).view.emb (ix2 p q))
  have hemb : ((cfg1.win 3).blk t).view.emb (ix2 p q) = ix2 (⟨t.val * 5000 + p.val, by have := p.isLt; omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  rw [hemb]
  refine pay_entry dW hrW hsW hlcW hrcW hl0W hr1W h4 h5 (V c main_v43) (V c main_v44) (V c main_arg4)
    (iblk1 V c 0 t) (iblk1 V c 1 t) (iblk1 V c 2 t) p q _ (fun k => ?_) (fun k => ?_) (fun k => ?_)
  · show V c main_v43 (((cfg1.win 0).blk t).view.emb (ix2 p k)) = _
    refine congrArg (V c main_v43) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v44 (((cfg1.win 1).blk t).view.emb (ix2 0 k)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg4 (((cfg1.win 2).blk t).view.emb (ix2 k q)) = _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega

omit hrW hsW hlcW hrcW hl0W hr1W in
/-- An index of the output array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

omit hrW hsW hlcW hrcW hl0W hr1W in
/-- Every row lies in the block of the point numbered by its quotient by 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  let t : Fin cfg1.N := ⟨(i 0).val / 5000, by rw [show cfg1.N = 20 from N_1]; omega⟩
  obtain ⟨e0, e1, -⟩ := idx_facts t
  have tv : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the region: the whole dense step of the arrays as the region finds them. -/
theorem final (c : Dev nD) :
    (dat1 (F := Ideal) V c).arrAt 3 cfg1.N = layer dW h4 h5 (V c main_v43) (V c main_v44) (V c main_arg4) :=
  (dat1 (F := Ideal) V c).arrAt_eq_of_cover 3 _ (fun t _ => flushed_eq V dW hrW hsW hlcW hrcW hl0W hr1W h4 h5 c t) cover

end Whole

end Cert.KernelIdeal.Region1

end
-- ==== Proof.Bridge6.lean ====
/-
  Boundary 4: after layer 2's dense step.

  The kernel's region adds the bias row to each block of rows of the aggregated array, takes the maximum with zero and
  multiplies with the weights; the reference does the same on the whole array with host operations.  Entry by entry both
  are the sum over k of max(A[P, k] + b[k], 0) · W[k, q].
-/
import proofs.«166022_j22273700397754_1_alg».proof.Proof.BridgeDefs
import proofs.«166022_j22273700397754_1_alg».proof.Proof.Region1
import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
theorem l6_v3 (h : L5 m ρ m' c) : Cert.KernelIdeal.Gen.W6 m ρ c (Proc.devRef .tc Cert.KernelIdeal.main_v3) = Cert.ReferenceIdeal.Stages.R4 m' c (Proc.devRef .tc Cert.ReferenceIdeal.main_v3) :=
  (Cert.KernelIdeal.Gen.W6_of_ne m ρ c Cert.KernelIdeal.main_v3 (by decide)).trans (h.v3.trans
    (by show _ = StableHlo.after Cert.ReferenceIdeal.Stages.opsD (Cert.ReferenceIdeal.Stages.R3 m' c) (Proc.devRef .tc Cert.ReferenceIdeal.main_v3); after_results))

set_option maxHeartbeats 8000000 in
theorem l6_v6 (h : L5 m ρ m' c) : Cert.KernelIdeal.Gen.W6 m ρ c (Proc.devRef .tc Cert.KernelIdeal.main_v6) = Cert.ReferenceIdeal.Stages.R4 m' c (Proc.devRef .tc Cert.ReferenceIdeal.main_v6) :=
  (Cert.KernelIdeal.Gen.W6_of_ne m ρ c Cert.KernelIdeal.main_v6 (by decide)).trans (h.v6.trans
    (by show _ = StableHlo.after Cert.ReferenceIdeal.Stages.opsD (Cert.ReferenceIdeal.Stages.R3 m' c) (Proc.devRef .tc Cert.ReferenceIdeal.main_v6); after_results))

set_option maxHeartbeats 8000000 in
theorem l6_v29 (h : L5 m ρ m' c) : Cert.KernelIdeal.Gen.W6 m ρ c (Proc.devRef .tc Cert.KernelIdeal.main_v29) = Cert.ReferenceIdeal.Stages.R4 m' c (Proc.devRef .tc Cert.ReferenceIdeal.main_v29) :=
  (Cert.KernelIdeal.Gen.W6_of_ne m ρ c Cert.KernelIdeal.main_v29 (by decide)).trans (h.v29.trans
    (by show _ = StableHlo.after Cert.ReferenceIdeal.Stages.opsD (Cert.ReferenceIdeal.Stages.R3 m' c) (Proc.devRef .tc Cert.ReferenceIdeal.main_v29); after_results))

set_option maxHeartbeats 8000000 in
theorem l6_a5 (h : L5 m ρ m' c) : Cert.KernelIdeal.Gen.W6 m ρ c (Proc.devRef .tc Cert.KernelIdeal.main_arg5) = Cert.ReferenceIdeal.Stages.R4 m' c (Proc.devRef .tc Cert.ReferenceIdeal.main_arg5) :=
  (Cert.KernelIdeal.Gen.W6_of_ne m ρ c Cert.KernelIdeal.main_arg5 (by decide)).trans (h.a5.trans
    (by show _ = StableHlo.after Cert.ReferenceIdeal.Stages.opsD (Cert.ReferenceIdeal.Stages.R3 m' c) (Proc.devRef .tc Cert.ReferenceIdeal.main_arg5); after_results))

set_option maxHeartbeats 8000000 in
theorem l6_a6 (h : L5 m ρ m' c) : Cert.KernelIdeal.Gen.W6 m ρ c (Proc.devRef .tc Cert.KernelIdeal.main_arg6) = Cert.ReferenceIdeal.Stages.R4 m' c (Proc.devRef .tc Cert.ReferenceIdeal.main_arg6) :=
  (Cert.KernelIdeal.Gen.W6_of_ne m ρ c Cert.KernelIdeal.main_arg6 (by decide)).trans (h.a6.trans
    (by show _ = StableHlo.after Cert.ReferenceIdeal.Stages.opsD (Cert.ReferenceIdeal.Stages.R3 m' c) (Proc.devRef .tc Cert.ReferenceIdeal.main_arg6); after_results))

set_option maxHeartbeats 8000000 in
theorem l6_a7 (h : L5 m ρ m' c) : Cert.KernelIdeal.Gen.W6 m ρ c (Proc.devRef .tc Cert.KernelIdeal.main_arg7) = Cert.ReferenceIdeal.Stages.R4 m' c (Proc.devRef .tc Cert.ReferenceIdeal.main_arg7) :=
  (Cert.KernelIdeal.Gen.W6_of_ne m ρ c Cert.KernelIdeal.main_arg7 (by decide)).trans (h.a7.trans
    (by show _ = StableHlo.after Cert.ReferenceIdeal.Stages.opsD (Cert.ReferenceIdeal.Stages.R3 m' c) (Proc.devRef .tc Cert.ReferenceIdeal.main_arg7); after_results))

set_option maxHeartbeats 8000000 in
/-- The dense step's array. -/
theorem l6_h45 (h : L5 m ρ m' c) : Cert.KernelIdeal.Gen.W6 m ρ c (Proc.devRef .tc Cert.KernelIdeal.main_v45) = Cert.ReferenceIdeal.Stages.R4 m' c (Proc.devRef .tc Cert.ReferenceIdeal.main_v48) := by
  refine ((Cert.KernelIdeal.Gen.W6_arr m ρ c 3).trans (Cert.KernelIdeal.Region1.final (Cert.KernelIdeal.Gen.V5 m ρ) Cert.ReferenceIdeal.dot_S100000x128_S128x128_S100000x128_1_0_0_1_n_n rfl rfl rfl rfl
      Cert.ReferenceIdeal.Stages.dot128_lhs0 Cert.ReferenceIdeal.Stages.dot128_rhs1 Cert.ReferenceIdeal.Facts₀.bcast_S1x128_S100000x128_0_1 Cert.ReferenceIdeal.Facts₀.bcast_S_S100000x128 c)).trans ?_
  show Cert.KernelIdeal.Region1.layer Cert.ReferenceIdeal.dot_S100000x128_S128x128_S100000x128_1_0_0_1_n_n Cert.ReferenceIdeal.Facts₀.bcast_S1x128_S100000x128_0_1 Cert.ReferenceIdeal.Facts₀.bcast_S_S100000x128 (Cert.KernelIdeal.Gen.W5 m ρ c (Proc.devRef .tc Cert.KernelIdeal.main_v43)) (Cert.KernelIdeal.Gen.W5 m ρ c (Proc.devRef .tc Cert.KernelIdeal.main_v44)) (Cert.KernelIdeal.Gen.W5 m ρ c (Proc.devRef .tc Cert.KernelIdeal.main_arg4))
      = StableHlo.after Cert.ReferenceIdeal.Stages.opsD (Cert.ReferenceIdeal.Stages.R3 m' c) (Proc.devRef .tc Cert.ReferenceIdeal.main_v48)
  rw [h.h43, h.r44, h.a4]
  after_results
  unfold Cert.KernelIdeal.Region1.layer
  refine congrArg (fun X => Host.dotGeneral Cert.ReferenceIdeal.dot_S100000x128_S128x128_S100000x128_1_0_0_1_n_n none X _) ?_
  simp only [Cert.ReferenceIdeal.Stages.toBuf_main_v47, Cert.ReferenceIdeal.Stages.ofBuf_main_v46, Cert.ReferenceIdeal.Stages.toBuf_main_call1_v0, Cert.ReferenceIdeal.Stages.ofBuf_main_call1_v0, Cert.ReferenceIdeal.Stages.toBuf_main_call1_cst, Cert.ReferenceIdeal.Stages.ofBuf_main_call1_cst] <;> rfl

/-- After the dense step. -/
theorem level6 (h : L5 m ρ m' c) : L6 m ρ m' c :=
  ⟨l6_v3 m ρ m' c h, l6_v6 m ρ m' c h, l6_v29 m ρ m' c h, l6_a5 m ρ m' c h, l6_a6 m ρ m' c h, l6_a7 m ρ m' c h, l6_h45 m ρ m' c h⟩
end Cert.Bridge

end
-- ==== Proof.Bridge7.lean ====
/-
  Boundary 5: after layer 2's aggregation.

  Both programs gather the rows of the newest array at the edge sources, scale each row by its edge's weight and add the
  rows up at the edge targets, with the same operations; and both lay the next bias as a 1 × 128 row, the kernel's program
  by a reshape, the reference by a broadcast along a new leading axis: the same row.
-/
import proofs.«166022_j22273700397754_1_alg».proof.Proof.BridgeDefs
import proofs.«166022_j22273700397754_1_alg».proof.Proof.LibCombine
import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
theorem l7_v3 (h : L6 m ρ m' c) : Cert.KernelIdeal.Gen.W7 m ρ c (Proc.devRef .tc Cert.KernelIdeal.main_v3) = Cert.ReferenceIdeal.Stages.R5 m' c (Proc.devRef .tc Cert.ReferenceIdeal.main_v3) := by
  show StableHlo.after Cert.KernelIdeal.Gen.hostOps2 (Cert.KernelIdeal.Gen.W6 m ρ c) (Proc.devRef .tc Cert.KernelIdeal.main_v3)
      = StableHlo.after Cert.ReferenceIdeal.Stages.opsE (Cert.ReferenceIdeal.Stages.R4 m' c) (Proc.devRef .tc Cert.ReferenceIdeal.main_v3)
  after_results
  exact h.v3

set_option maxHeartbeats 8000000 in
theorem l7_v6 (h : L6 m ρ m' c) : Cert.KernelIdeal.Gen.W7 m ρ c (Proc.devRef .tc Cert.KernelIdeal.main_v6) = Cert.ReferenceIdeal.Stages.R5 m' c (Proc.devRef .tc Cert.ReferenceIdeal.main_v6) := by
  show StableHlo.after Cert.KernelIdeal.Gen.hostOps2 (Cert.KernelIdeal.Gen.W6 m ρ c) (Proc.devRef .tc Cert.KernelIdeal.main_v6)
      = StableHlo.after Cert.ReferenceIdeal.Stages.opsE (Cert.ReferenceIdeal.Stages.R4 m' c) (Proc.devRef .tc Cert.ReferenceIdeal.main_v6)
  after_results
  exact h.v6

set_option maxHeartbeats 8000000 in
theorem l7_v29 (h : L6 m ρ m' c) : Cert.KernelIdeal.Gen.W7 m ρ c (Proc.devRef .tc Cert.KernelIdeal.main_v29) = Cert.ReferenceIdeal.Stages.R5 m' c (Proc.devRef .tc Cert.ReferenceIdeal.main_v29) := by
  show StableHlo.after Cert.KernelIdeal.Gen.hostOps2 (Cert.KernelIdeal.Gen.W6 m ρ c) (Proc.devRef .tc Cert.KernelIdeal.main_v29)
      = StableHlo.after Cert.ReferenceIdeal.Stages.opsE (Cert.ReferenceIdeal.Stages.R4 m' c) (Proc.devRef .tc Cert.ReferenceIdeal.main_v29)
  after_results
  exact h.v29

set_option maxHeartbeats 8000000 in
theorem l7_a6 (h : L6 m ρ m' c) : Cert.KernelIdeal.Gen.W7 m ρ c (Proc.devRef .tc Cert.KernelIdeal.main_arg6) = Cert.ReferenceIdeal.Stages.R5 m' c (Proc.devRef .tc Cert.ReferenceIdeal.main_arg6) := by
  show StableHlo.after Cert.KernelIdeal.Gen.hostOps2 (Cert.KernelIdeal.Gen.W6 m ρ c) (Proc.devRef .tc Cert.KernelIdeal.main_arg6)
      = StableHlo.after Cert.ReferenceIdeal.Stages.opsE (Cert.ReferenceIdeal.Stages.R4 m' c) (Proc.devRef .tc Cert.ReferenceIdeal.main_arg6)
  after_results
  exact h.a6

set_option maxHeartbeats 8000000 in
theorem l7_a7 (h : L6 m ρ m' c) : Cert.KernelIdeal.Gen.W7 m ρ c (Proc.devRef .tc Cert.KernelIdeal.main_arg7) = Cert.ReferenceIdeal.Stages.R5 m' c (Proc.devRef .tc Cert.ReferenceIdeal.main_arg7) := by
  show StableHlo.after Cert.KernelIdeal.Gen.hostOps2 (Cert.KernelIdeal.Gen.W6 m ρ c) (Proc.devRef .tc Cert.KernelIdeal.main_arg7)
      = StableHlo.after Cert.ReferenceIdeal.Stages.opsE (Cert.ReferenceIdeal.Stages.R4 m' c) (Proc.devRef .tc Cert.ReferenceIdeal.main_arg7)
  after_results
  exact h.a7

set_option maxHeartbeats 8000000 in
/-- The aggregated array. -/
theorem l7_h58 (h : L6 m ρ m' c) : Cert.KernelIdeal.Gen.W7 m ρ c (Proc.devRef .tc Cert.KernelIdeal.main_v58) = Cert.ReferenceIdeal.Stages.R5 m' c (Proc.devRef .tc Cert.ReferenceIdeal.main_v61) := by
  show StableHlo.after Cert.KernelIdeal.Gen.hostOps2 (Cert.KernelIdeal.Gen.W6 m ρ c) (Proc.devRef .tc Cert.KernelIdeal.main_v58)
      = StableHlo.after Cert.ReferenceIdeal.Stages.opsE (Cert.ReferenceIdeal.Stages.R4 m' c) (Proc.devRef .tc Cert.ReferenceIdeal.main_v61)
  after_results
  rw [h.v3, h.v6, h.v29, h.h45]
  rfl

set_option maxHeartbeats 8000000 in
/-- The bias laid as a row. -/
theorem l7_r59 (h : L6 m ρ m' c) : Cert.KernelIdeal.Gen.W7 m ρ c (Proc.devRef .tc Cert.KernelIdeal.main_v59) = Cert.ReferenceIdeal.Stages.R5 m' c (Proc.devRef .tc Cert.ReferenceIdeal.main_v62) := by
  show StableHlo.after Cert.KernelIdeal.Gen.hostOps2 (Cert.KernelIdeal.Gen.W6 m ρ c) (Proc.devRef .tc Cert.KernelIdeal.main_v59)
      = StableHlo.after Cert.ReferenceIdeal.Stages.opsE (Cert.ReferenceIdeal.Stages.R4 m' c) (Proc.devRef .tc Cert.ReferenceIdeal.main_v62)
  after_results
  rw [h.a5]
  exact Cert.LibCombine.reshapeRow_eq _ _ _

/-- After the aggregation. -/
theorem level7 (h : L6 m ρ m' c) : L7 m ρ m' c :=
  ⟨l7_v3 m ρ m' c h, l7_v6 m ρ m' c h, l7_v29 m ρ m' c h, l7_a6 m ρ m' c h, l7_a7 m ρ m' c h, l7_h58 m ρ m' c h, l7_r59 m ρ m' c h⟩
end Cert.Bridge

end
-- ==== Proof.Region2.lean ====
/-
  Layer 3's dense step, one block of 5000 rows at a time, is the dense step on the whole matrix.

  At grid point t the body reads rows 5000·t … 5000·t + 4999 of the aggregated features A, the bias row r (1 × 128) and
  the whole weight matrix W (128 × 128), and writes back max(A_blk + r, 0) · W_blk into the same rows of the output.
  Entry (p, q) of that block is the sum over k of max(A[5000·t + p, k] + r[0, k], 0) · W[k, q], which is entry
  (5000·t + p, q) of the product of the rectified whole matrix with W.  The twenty blocks tile the 100000 rows, so the
  output array ends as the whole product.  On the extended reals the narrowing to bf16 is the identity and the sums
  have equal terms: no law beyond that is used, and no finiteness.
-/
import proofs.«166022_j22273700397754_1_alg».proof.Proof.Gen.KernelIdeal.Frame
import proofs.«166022_j22273700397754_1_alg».proof.Proof.LibMatRows
import proofs.«166022_j22273700397754_1_alg».proof.Proof.LibCombine
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Idealize.ShloMosaic.Pipeline

/-- The dense step on the whole matrix in the host's spelling: rectify A plus the bias row, multiply with W. -/
def layer (dW : DotDims S100000x128 S128x128 S100000x128)
    (h4 : S1x128.BroadcastsInDim S100000x128 (![0, 1] : Fin 2 → Fin 2)) (h5 : S_.BroadcastsInDim S100000x128 (![] : Fin 0 → Fin 2))
    (A : FVec Ideal S100000x128 .f32) (R : FVec Ideal S1x128 .f32) (W : FVec Ideal S128x128 .f32) : FVec Ideal S100000x128 .f32 :=
  Host.dotGeneral dW none
    (maximumf (addf A (broadcastInDim S100000x128 ![0, 1] h4 R))
      (broadcastInDim S100000x128 ![] h5 (constant (F := Ideal) S_ .f32 0x00000000#32))) W

/-- The block record's free coordinates: the left operand's row is the result's row, the right operand's column the
    result's column. -/
theorem blockDot_lhs0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem blockDot_rhs1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

section Whole

variable (dW : DotDims S100000x128 S128x128 S100000x128)
  (hrW : dW.contr.rank = 1) (hsW : dW.contr.size ⟨0, by omega⟩ = 128)
  (hlcW : dW.lhsContracting = [1]) (hrcW : dW.rhsContracting = [0])
  (hl0W : ∀ j k, (dW.lhsIdx j k 0).val = (j 0).val) (hr1W : ∀ j k, (dW.rhsIdx j k 1).val = (j 1).val)
  (h4 : S1x128.BroadcastsInDim S100000x128 (![0, 1] : Fin 2 → Fin 2)) (h5 : S_.BroadcastsInDim S100000x128 (![] : Fin 0 → Fin 2))

include hrW hsW hlcW hrcW hl0W hr1W

/-- Entry (p, q) of the body's stored value is entry (P, q) of the whole dense step, when row p of the loaded block is
    row P of A and the loaded bias row and weights are the whole ones. -/
theorem pay_entry (A : FVec Ideal S100000x128 .f32) (R : FVec Ideal S1x128 .f32) (W : FVec Ideal S128x128 .f32)
    (x0 : Vec Ideal S5000x128 .f32) (x1 : Vec Ideal S1x128 .f32) (x2 : Vec Ideal S128x128 .f32)
    (p : Fin 5000) (q : Fin 128) (P : Fin 100000)
    (hx : ∀ k : Fin 128, x0 (ix2 p k) = A (ix2 P k)) (hr : ∀ k : Fin 128, x1 (ix2 0 k) = R (ix2 0 k))
    (hw : ∀ k : Fin 128, x2 (ix2 k q) = W (ix2 k q)) :
    k2_pay1 x0 x1 x2 (ix2 p q) = layer dW h4 h5 A R W (ix2 P q) := by
  unfold k2_pay1 layer
  refine Cert.LibMatRows.block_entry dot_S5000x128_S128x128_S5000x128_1_0_0_1_n_n dW rfl rfl rfl rfl blockDot_lhs0 blockDot_rhs1
    hrW hsW hlcW hrcW hl0W hr1W _ W _ _ p q P (fun k => ?_) (fun k => ?_)
  · rw [truncf_apply]
    exact Cert.LibCombine.combine1_entry _ x1 A R shapeCasts_S1x128_S1x128 broadcasts_S1x128_S5000x128 h4 h5 p k P
      (by rw [shapeCast_self]; exact hx k) (hr k)
  · rw [truncf_apply]; exact hw k

end Whole

/-! ## From blocks to the array -/

theorem hz : (![0, 0] : Fin 2 → Nat) = fun _ => 0 := funext fun a => by fin_cases a <;> rfl

/-- The printed index maps over the grid: the row-block windows sit at block t, the bias row and the weights at block 0. -/
theorem idx_facts : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

section Whole

variable (V : (c : Dev nD) → (b : Ref sig .tc) → Buf (Elt Ideal) ((c : Thread nD τ).loc b))
variable (dW : DotDims S100000x128 S128x128 S100000x128)
  (hrW : dW.contr.rank = 1) (hsW : dW.contr.size ⟨0, by omega⟩ = 128)
  (hlcW : dW.lhsContracting = [1]) (hrcW : dW.rhsContracting = [0])
  (hl0W : ∀ j k, (dW.lhsIdx j k 0).val = (j 0).val) (hr1W : ∀ j k, (dW.rhsIdx j k 1).val = (j 1).val)
  (h4 : S1x128.BroadcastsInDim S100000x128 (![0, 1] : Fin 2 → Fin 2)) (h5 : S_.BroadcastsInDim S100000x128 (![] : Fin 0 → Fin 2))

include hrW hsW hlcW hrcW hl0W hr1W

/-- What point t writes back is block t of the whole dense step of the arrays as the region finds them. -/
theorem flushed_eq (c : Dev nD) (t : Fin cfg2.N) :
    (dat2 (F := Ideal) V c).flushed 3 t = ((cfg2.win 3).blk t).view.read (Elt Ideal)
      (layer dW h4 h5 (V c main_v58) (V c main_v59) (V c main_arg6)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x128) hz]
  obtain ⟨e0, e1, e2, e3, e4, e5, e6, e7⟩ := idx_facts t
  have ht : t.val < 20 := N_2 ▸ t.isLt
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = layer dW h4 h5 (V c main_v58) (V c main_v59) (V c main_arg6) (((cfg2.win 3).blk t).view.emb (ix2 p q))
  have hemb : ((cfg2.win 3).blk t).view.emb (ix2 p q) = ix2 (⟨t.val * 5000 + p.val, by have := p.isLt; omega⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  rw [hemb]
  refine pay_entry dW hrW hsW hlcW hrcW hl0W hr1W h4 h5 (V c main_v58) (V c main_v59) (V c main_arg6)
    (iblk2 V c 0 t) (iblk2 V c 1 t) (iblk2 V c 2 t) p q _ (fun k => ?_) (fun k => ?_) (fun k => ?_)
  · show V c main_v58 (((cfg2.win 0).blk t).view.emb (ix2 p k)) = _
    refine congrArg (V c main_v58) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · show V c main_v59 (((cfg2.win 1).blk t).view.emb (ix2 0 k)) = _
    refine congrArg (V c main_v59) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_arg6 (((cfg2.win 2).blk t).view.emb (ix2 k q)) = _
    refine congrArg (V c main_arg6) (funext fun a => Fin.ext ?_)
    match a with
    | ⟨0, _⟩ => show win2_2.index t (0 : Fin 2) * 128 + 1 * k.val = k.val; omega
    | ⟨1, _⟩ => show win2_2.index t (1 : Fin 2) * 128 + 1 * q.val = q.val; omega

omit hrW hsW hlcW hrcW hl0W hr1W in
/-- An index of the output array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v60).slice (win2_3.rect t)).set ↔ _
  rw [View.set_slice_whole, Rect.mem_set_unit]
  exact Iff.rfl

omit hrW hsW hlcW hrcW hl0W hr1W in
/-- Every row lies in the block of the point numbered by its quotient by 5000. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  let t : Fin cfg2.N := ⟨(i 0).val / 5000, by rw [show cfg2.N = 20 from N_2]; omega⟩
  obtain ⟨e0, e1, -⟩ := idx_facts t
  have tv : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE OUTPUT ARRAY after the region: the whole dense step of the arrays as the region finds them. -/
theorem final (c : Dev nD) :
    (dat2 (F := Ideal) V c).arrAt 3 cfg2.N = layer dW h4 h5 (V c main_v58) (V c main_v59) (V c main_arg6) :=
  (dat2 (F := Ideal) V c).arrAt_eq_of_cover 3 _ (fun t _ => flushed_eq V dW hrW hsW hlcW hrcW hl0W hr1W h4 h5 c t) cover

end Whole

end Cert.KernelIdeal.Region2

end
-- ==== Proof.Bridge8.lean ====
/-
  Boundary 6: after layer 3's dense step.

  The kernel's region adds the bias row to each block of rows of the aggregated array, takes the maximum with zero and
  multiplies with the weights; the reference does the same on the whole array with host operations.  Entry by entry both
  are the sum over k of max(A[P, k] + b[k], 0) · W[k, q].
-/
import proofs.«166022_j22273700397754_1_alg».proof.Proof.BridgeDefs
import proofs.«166022_j22273700397754_1_alg».proof.Proof.Region2
import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
theorem l8_v3 (h : L7 m ρ m' c) : Cert.KernelIdeal.Gen.W8 m ρ c (Proc.devRef .tc Cert.KernelIdeal.main_v3) = Cert.ReferenceIdeal.Stages.R6 m' c (Proc.devRef .tc Cert.ReferenceIdeal.main_v3) :=
  (Cert.KernelIdeal.Gen.W8_of_ne m ρ c Cert.KernelIdeal.main_v3 (by decide)).trans (h.v3.trans
    (by show _ = StableHlo.after Cert.ReferenceIdeal.Stages.opsF (Cert.ReferenceIdeal.Stages.R5 m' c) (Proc.devRef .tc Cert.ReferenceIdeal.main_v3); after_results))

set_option maxHeartbeats 8000000 in
theorem l8_v6 (h : L7 m ρ m' c) : Cert.KernelIdeal.Gen.W8 m ρ c (Proc.devRef .tc Cert.KernelIdeal.main_v6) = Cert.ReferenceIdeal.Stages.R6 m' c (Proc.devRef .tc Cert.ReferenceIdeal.main_v6) :=
  (Cert.KernelIdeal.Gen.W8_of_ne m ρ c Cert.KernelIdeal.main_v6 (by decide)).trans (h.v6.trans
    (by show _ = StableHlo.after Cert.ReferenceIdeal.Stages.opsF (Cert.ReferenceIdeal.Stages.R5 m' c) (Proc.devRef .tc Cert.ReferenceIdeal.main_v6); after_results))

set_option maxHeartbeats 8000000 in
theorem l8_v29 (h : L7 m ρ m' c) : Cert.KernelIdeal.Gen.W8 m ρ c (Proc.devRef .tc Cert.KernelIdeal.main_v29) = Cert.ReferenceIdeal.Stages.R6 m' c (Proc.devRef .tc Cert.ReferenceIdeal.main_v29) :=
  (Cert.KernelIdeal.Gen.W8_of_ne m ρ c Cert.KernelIdeal.main_v29 (by decide)).trans (h.v29.trans
    (by show _ = StableHlo.after Cert.ReferenceIdeal.Stages.opsF (Cert.ReferenceIdeal.Stages.R5 m' c) (Proc.devRef .tc Cert.ReferenceIdeal.main_v29); after_results))

set_option maxHeartbeats 8000000 in
theorem l8_a7 (h : L7 m ρ m' c) : Cert.KernelIdeal.Gen.W8 m ρ c (Proc.devRef .tc Cert.KernelIdeal.main_arg7) = Cert.ReferenceIdeal.Stages.R6 m' c (Proc.devRef .tc Cert.ReferenceIdeal.main_arg7) :=
  (Cert.KernelIdeal.Gen.W8_of_ne m ρ c Cert.KernelIdeal.main_arg7 (by decide)).trans (h.a7.trans
    (by show _ = StableHlo.after Cert.ReferenceIdeal.Stages.opsF (Cert.ReferenceIdeal.Stages.R5 m' c) (Proc.devRef .tc Cert.ReferenceIdeal.main_arg7); after_results))

set_option maxHeartbeats 8000000 in
/-- The dense step's array. -/
theorem l8_h60 (h : L7 m ρ m' c) : Cert.KernelIdeal.Gen.W8 m ρ c (Proc.devRef .tc Cert.KernelIdeal.main_v60) = Cert.ReferenceIdeal.Stages.R6 m' c (Proc.devRef .tc Cert.ReferenceIdeal.main_v66) := by
  refine ((Cert.KernelIdeal.Gen.W8_arr m ρ c 3).trans (Cert.KernelIdeal.Region2.final (Cert.KernelIdeal.Gen.V7 m ρ) Cert.ReferenceIdeal.dot_S100000x128_S128x128_S100000x128_1_0_0_1_n_n rfl rfl rfl rfl
      Cert.ReferenceIdeal.Stages.dot128_lhs0 Cert.ReferenceIdeal.Stages.dot128_rhs1 Cert.ReferenceIdeal.Facts₀.bcast_S1x128_S100000x128_0_1 Cert.ReferenceIdeal.Facts₀.bcast_S_S100000x128 c)).trans ?_
  show Cert.KernelIdeal.Region2.layer Cert.ReferenceIdeal.dot_S100000x128_S128x128_S100000x128_1_0_0_1_n_n Cert.ReferenceIdeal.Facts₀.bcast_S1x128_S100000x128_0_1 Cert.ReferenceIdeal.Facts₀.bcast_S_S100000x128 (Cert.KernelIdeal.Gen.W7 m ρ c (Proc.devRef .tc Cert.KernelIdeal.main_v58)) (Cert.KernelIdeal.Gen.W7 m ρ c (Proc.devRef .tc Cert.KernelIdeal.main_v59)) (Cert.KernelIdeal.Gen.W7 m ρ c (Proc.devRef .tc Cert.KernelIdeal.main_arg6))
      = StableHlo.after Cert.ReferenceIdeal.Stages.opsF (Cert.ReferenceIdeal.Stages.R5 m' c) (Proc.devRef .tc Cert.ReferenceIdeal.main_v66)
  rw [h.h58, h.r59, h.a6]
  after_results
  unfold Cert.KernelIdeal.Region2.layer
  refine congrArg (fun X => Host.dotGeneral Cert.ReferenceIdeal.dot_S100000x128_S128x128_S100000x128_1_0_0_1_n_n none X _) ?_
  simp only [Cert.ReferenceIdeal.Stages.toBuf_main_v65, Cert.ReferenceIdeal.Stages.ofBuf_main_v64, Cert.ReferenceIdeal.Stages.toBuf_main_call2_v0, Cert.ReferenceIdeal.Stages.ofBuf_main_call2_v0, Cert.ReferenceIdeal.Stages.toBuf_main_call2_cst, Cert.ReferenceIdeal.Stages.ofBuf_main_call2_cst] <;> rfl

/-- After the dense step. -/
theorem level8 (h : L7 m ρ m' c) : L8 m ρ m' c :=
  ⟨l8_v3 m ρ m' c h, l8_v6 m ρ m' c h, l8_v29 m ρ m' c h, l8_a7 m ρ m' c h, l8_h60 m ρ m' c h⟩
end Cert.Bridge

end
-- ==== Proof.Bridge9.lean ====
/-
  Boundary 7: after layer 3's aggregation.

  Both programs gather the rows of the newest array at the edge sources, scale each row by its edge's weight and add the
  rows up at the edge targets, with the same operations; and both lay the next bias as a 1 × 128 row, the kernel's program
  by a reshape, the reference by a broadcast along a new leading axis: the same row.
-/
import proofs.«166022_j22273700397754_1_alg».proof.Proof.BridgeDefs
import proofs.«166022_j22273700397754_1_alg».proof.Proof.LibCombine
import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

set_option maxHeartbeats 8000000 in
/-- The aggregated array. -/
theorem l9_h73 (h : L8 m ρ m' c) : Cert.KernelIdeal.Gen.W9 m ρ c (Proc.devRef .tc Cert.KernelIdeal.main_v73) = Cert.ReferenceIdeal.Stages.R7 m' c (Proc.devRef .tc Cert.ReferenceIdeal.main_v79) := by
  show StableHlo.after Cert.KernelIdeal.Gen.hostOps3 (Cert.KernelIdeal.Gen.W8 m ρ c) (Proc.devRef .tc Cert.KernelIdeal.main_v73)
      = StableHlo.after Cert.ReferenceIdeal.Stages.opsG (Cert.ReferenceIdeal.Stages.R6 m' c) (Proc.devRef .tc Cert.ReferenceIdeal.main_v79)
  after_results
  rw [h.v3, h.v6, h.v29, h.h60]
  rfl

set_option maxHeartbeats 8000000 in
/-- The bias laid as a row. -/
theorem l9_r74 (h : L8 m ρ m' c) : Cert.KernelIdeal.Gen.W9 m ρ c (Proc.devRef .tc Cert.KernelIdeal.main_v74) = Cert.ReferenceIdeal.Stages.R7 m' c (Proc.devRef .tc Cert.ReferenceIdeal.main_v80) := by
  show StableHlo.after Cert.KernelIdeal.Gen.hostOps3 (Cert.KernelIdeal.Gen.W8 m ρ c) (Proc.devRef .tc Cert.KernelIdeal.main_v74)
      = StableHlo.after Cert.ReferenceIdeal.Stages.opsG (Cert.ReferenceIdeal.Stages.R6 m' c) (Proc.devRef .tc Cert.ReferenceIdeal.main_v80)
  after_results
  rw [h.a7]
  exact Cert.LibCombine.reshapeRow_eq _ _ _

/-- After the aggregation. -/
theorem level9 (h : L8 m ρ m' c) : L9 m ρ m' c :=
  ⟨l9_h73 m ρ m' c h, l9_r74 m ρ m' c h⟩
end Cert.Bridge

end
-- ==== Proof.Region3.lean ====
/-
  The last layer's bias, added one block of 5000 rows at a time, is the bias added to the whole matrix.

  At grid point t the body reads rows 5000·t … 5000·t + 4999 of the aggregated features A and the bias row r (1 × 128)
  and writes back A_blk + r into the same rows of the output.  Entry (p, q) of that block is A[5000·t + p, q] + r[0, q],
  which is entry (5000·t + p, q) of A plus the row repeated down all rows.  The twenty blocks tile the 100000 rows.
-/
import proofs.«166022_j22273700397754_1_alg».proof.Proof.Gen.KernelIdeal.Frame
import proofs.«166022_j22273700397754_1_alg».proof.Proof.LibCombine
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem Idealize.ShloMosaic.Pipeline

theorem hz : (![0, 0] : Fin 2 → Nat) = fun _ => 0 := funext fun a => by fin_cases a <;> rfl

/-- The printed index maps over the grid: the row-block windows sit at block t, the bias row at block 0. -/
theorem idx_facts : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)

/-- A plus the bias row repeated down all rows, in the host's spelling. -/
def biased (h4 : S1x128.BroadcastsInDim S100000x128 (![0, 1] : Fin 2 → Fin 2))
    (A : FVec Ideal S100000x128 .f32) (R : FVec Ideal S1x128 .f32) : FVec Ideal S100000x128 .f32 :=
  addf A (broadcastInDim S100000x128 ![0, 1] h4 R)

/-- Entry (p, q) of the body's stored value is entry (P, q) of A plus the repeated bias row, when the loaded block's
    entry is A's and the loaded bias row is the whole one at column q. -/
theorem pay_entry (h4 : S1x128.BroadcastsInDim S100000x128 (![0, 1] : Fin 2 → Fin 2))
    (A : FVec Ideal S100000x128 .f32) (R : FVec Ideal S1x128 .f32)
    (x0 : Vec Ideal S5000x128 .f32) (x1 : Vec Ideal S1x128 .f32)
    (p : Fin 5000) (q : Fin 128) (P : Fin 100000)
    (hx : x0 (ix2 p q) = A (ix2 P q)) (hr : x1 (ix2 0 q) = R (ix2 0 q)) :
    k3_pay1 x0 x1 (ix2 p q) = biased h4 A R (ix2 P q) := by
  unfold k3_pay1 biased
  simp only [addf]
  rw [Cert.LibCombine.blockRow_apply x1 shapeCasts_S1x128_S1x128 broadcasts_S1x128_S5000x128 p q,
    Cert.LibCombine.wholeRow_apply R h4 P q, shapeCast_self, hx, hr]

section Whole

variable (V : (c : Dev nD) → (b : Ref sig .tc) → Buf (Elt Ideal) ((c : Thread nD τ).loc b))
variable (h4 : S1x128.BroadcastsInDim S100000x128 (![0, 1] : Fin 2 → Fin 2))

/-- What point t writes back is block t of A plus the repeated bias row, of the arrays as the region finds them. -/
theorem flushed_eq (c : Dev nD) (t : Fin cfg3.N) :
    (dat3 (F := Ideal) V c).flushed 2 t = ((cfg3.win 2).blk t).view.read (Elt Ideal)
      (biased h4 (V c main_v73) (V c main_v74)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e0, e1, e2, e3, e4, e5⟩ := idx_facts t
  have ht : t.val < 20 := N_3 ▸ t.isLt
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = biased h4 (V c main_v73) (V c main_v74) (((cfg3.win 2).blk t).view.emb (ix2 p q))
  have hemb : ((cfg3.win 2).blk t).view.emb (ix2 p q) = ix2 (⟨t.val * 5000 + p.val, by have := p.isLt; omega⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  rw [hemb]
  refine pay_entry h4 (V c main_v73) (V c main_v74) (iblk3 V c 0 t) (iblk3 V c 1 t) p q _ ?_ ?_
  · show V c main_v73 (((cfg3.win 0).blk t).view.emb (ix2 p q)) = _
    refine congrArg (V c main_v73) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  · show V c main_v74 (((cfg3.win 1).blk t).view.emb (ix2 0 q)) = _
    refine congrArg (V c main_v74) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega

omit h4 in
/-- An index of the output array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v75).slice (win3_2.rect t)).set ↔ _
  rw [View.set_slice_whole, Rect.mem_set_unit]
  exact Iff.rfl

omit h4 in
/-- Every row lies in the block of the point numbered by its quotient by 5000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 5000, by rw [show cfg3.N = 20 from N_3]; omega⟩
  obtain ⟨e0, e1, -⟩ := idx_facts t
  have tv : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- THE OUTPUT ARRAY after the region: A plus the repeated bias row, of the arrays as the region finds them. -/
theorem final (c : Dev nD) :
    (dat3 (F := Ideal) V c).arrAt 2 cfg3.N = biased h4 (V c main_v73) (V c main_v74) :=
  (dat3 (F := Ideal) V c).arrAt_eq_of_cover 2 _ (fun t _ => flushed_eq V h4 c t) cover

end Whole

end Cert.KernelIdeal.Region3

end
-- ==== Proof.Bridge10.lean ====
/-
  The last boundary: after the third bias.

  The kernel's last region adds the bias row to each block of rows of the third aggregated array; the reference adds the
  row, repeated down all rows, to the whole array.
-/
import proofs.«166022_j22273700397754_1_alg».proof.Proof.BridgeDefs
import proofs.«166022_j22273700397754_1_alg».proof.Proof.Region3
import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- After the last bias the two result buffers hold the same array. -/
theorem level10 (h : L9 m ρ m' c) : L10 m ρ m' c := by
  refine ⟨?_⟩
  refine ((Cert.KernelIdeal.Gen.W10_arr m ρ c 2).trans (Cert.KernelIdeal.Region3.final (Cert.KernelIdeal.Gen.V9 m ρ) Cert.ReferenceIdeal.Facts₀.bcast_S1x128_S100000x128_0_1 c)).trans ?_
  show Cert.KernelIdeal.Region3.biased Cert.ReferenceIdeal.Facts₀.bcast_S1x128_S100000x128_0_1 (Cert.KernelIdeal.Gen.W9 m ρ c (Proc.devRef .tc Cert.KernelIdeal.main_v73)) (Cert.KernelIdeal.Gen.W9 m ρ c (Proc.devRef .tc Cert.KernelIdeal.main_v74))
    = StableHlo.after Cert.ReferenceIdeal.Stages.opsH (Cert.ReferenceIdeal.Stages.R7 m' c) (Proc.devRef .tc Cert.ReferenceIdeal.main_v82)
  rw [h.h73, h.r74]
  after_results
  rfl
end Cert.Bridge

end
-- ==== Proof.Bridge.lean ====
/-
  The two results.

  Boundary by boundary the two programs hold the same arrays; at the last one the kernel's result buffer and the
  reference's hold the same array, and the reference's fold over its whole line of operations is its fold over the
  stretches.
-/
import proofs.«166022_j22273700397754_1_alg».proof.Proof.BridgeDefs
import proofs.«166022_j22273700397754_1_alg».proof.Proof.Bridge1
import proofs.«166022_j22273700397754_1_alg».proof.Proof.Bridge2
import proofs.«166022_j22273700397754_1_alg».proof.Proof.Bridge3
import proofs.«166022_j22273700397754_1_alg».proof.Proof.Bridge4
import proofs.«166022_j22273700397754_1_alg».proof.Proof.Bridge5
import proofs.«166022_j22273700397754_1_alg».proof.Proof.Bridge6
import proofs.«166022_j22273700397754_1_alg».proof.Proof.Bridge7
import proofs.«166022_j22273700397754_1_alg».proof.Proof.Bridge8
import proofs.«166022_j22273700397754_1_alg».proof.Proof.Bridge9
import proofs.«166022_j22273700397754_1_alg».proof.Proof.Bridge10
import Idealize.ShloMosaic.Lib.StableHlo.Run

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The kernel program's result buffer at its last boundary holds what the reference's line of operations leaves in the
    reference's result buffer, when the launch memories agree on the arguments. -/
theorem result_eq (hag : Agree m m') :
    Cert.KernelIdeal.Gen.W10 m ρ c (Proc.devRef .tc Cert.KernelIdeal.main_v75)
      = StableHlo.after Cert.ReferenceIdeal.Value.ops (StableHlo.launchContents m' c) (Proc.devRef .tc Cert.ReferenceIdeal.main_v82) := by
  rw [Cert.ReferenceIdeal.Stages.after_ops]
  exact (level10 m ρ m' c (level9 m ρ m' c (level8 m ρ m' c (level7 m ρ m' c (level6 m ρ m' c (level5 m ρ m' c
    (level4 m ρ m' c (level3 m ρ m' c (level2 m ρ m' c (level1 m ρ m' c hag)))))))))).out
end Cert.Bridge

end
-- ==== Proof.lean ====
/-
  A three-layer graph convolution: the Pallas program against its jnp reference, on the extended reals.

  Both programs take node features X (100000 × 4), an edge list (2 × 1600000), three weight matrices and three biases.
  Both append the self loops to the edge list, count each node's incoming edges, and weight every edge by the product of the
  inverse square roots of its end points' degrees.  Then, three times: a dense step (X · W1; then max(A + b, 0) · W for the
  aggregated A of the layer before), and an aggregation (gather the rows at the edge sources, scale by the edge weights,
  add up at the edge targets).  The last aggregation gets the last bias.
  The kernel's program makes the three dense steps and the last bias in four regions, each over twenty blocks of 5000 rows;
  the reference makes them with whole-array host operations.  A block's entry is the same sum of the same terms as the
  whole array's entry (the narrowing to bf16 before the products is the identity on the extended reals), the blocks tile
  the rows, and everything between the regions is the same host operations in both programs.  So the two results are
  equal, index by index; no algebraic law beyond the equality of the sums' terms is used, and finiteness of the inputs
  is never needed.
  The kernel's idealization rewrote nothing, so preserves is trivial; the three frames are the generated frame
  certificates (the kernels') and the reference's run with the result dropped.
-/
import proofs.«166022_j22273700397754_1_alg».proof.Defs
import proofs.«166022_j22273700397754_1_alg».proof.Proof.Gen.Kernel
import proofs.«166022_j22273700397754_1_alg».proof.Proof.Gen.Kernel.Skeleton
import proofs.«166022_j22273700397754_1_alg».proof.Proof.Gen.Kernel.Launch
import proofs.«166022_j22273700397754_1_alg».proof.Proof.Gen.Kernel.Points
import proofs.«166022_j22273700397754_1_alg».proof.Proof.Gen.Kernel.Frame
import proofs.«166022_j22273700397754_1_alg».proof.Proof.Gen.KernelIdeal
import proofs.«166022_j22273700397754_1_alg».proof.Proof.Gen.KernelIdeal.Skeleton
import proofs.«166022_j22273700397754_1_alg».proof.Proof.Gen.KernelIdeal.Launch
import proofs.«166022_j22273700397754_1_alg».proof.Proof.Gen.KernelIdeal.Points
import proofs.«166022_j22273700397754_1_alg».proof.Proof.Gen.KernelIdeal.Frame
import proofs.«166022_j22273700397754_1_alg».proof.Proof.Gen.ReferenceIdeal
import proofs.«166022_j22273700397754_1_alg».proof.Proof.Gen.Pre_finite_inputs
import proofs.«166022_j22273700397754_1_alg».proof.Proof.KernelRun
import proofs.«166022_j22273700397754_1_alg».proof.Proof.RefOps
import proofs.«166022_j22273700397754_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's program ends with its result buffer at its last boundary's contents, the reference with its result
    buffer at its line's fold; from agreeing arguments these are the same array. -/
theorem algebraic : Cert.algebraic_KernelIdeal_ReferenceIdeal := by
  intro m ρ m' ρ' _ hagree
  refine ⟨fun c => Cert.KernelIdeal.Gen.W10 m ρ c (Proc.devRef .tc Cert.KernelIdeal.main_v75),
    Cert.KernelIdeal.RunValue.run (F := Ideal) m ρ, ?_⟩
  exact (θ_run Cert.ReferenceIdeal.defs _ _).mono
    (fun _ h c => ⟨(h c).1.trans (Cert.Bridge.result_eq m ρ m' c hagree).symm, (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
